-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S2000x512 : Shape := ⟨2, ![2000, 512]⟩
abbrev S2000x64 : Shape := ⟨2, ![2000, 64]⟩
abbrev S3300000x64 : Shape := ⟨2, ![3300000, 64]⟩
abbrev S100000x40 : Shape := ⟨2, ![100000, 40]⟩
abbrev S2000x40 : Shape := ⟨2, ![2000, 40]⟩
abbrev S1x64 : Shape := ⟨2, ![1, 64]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 100
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S100000x40, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S3300000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x40, .f32⟩
  | .hbm, ⟨92, _⟩ => ⟨S3300000x1, .f32⟩
  | .hbm, ⟨93, _⟩ => ⟨S3300000x40, .f32⟩
  | .hbm, ⟨94, _⟩ => ⟨S3300000x40, .f32⟩
  | .hbm, ⟨95, _⟩ => ⟨S_, .f32⟩
  | .hbm, ⟨96, _⟩ => ⟨S100000x40, .f32⟩
  | .hbm, ⟨97, _⟩ => ⟨S3300000x1, .i32⟩
  | .hbm, ⟨98, _⟩ => ⟨S100000x40, .f32⟩
  | .hbm, ⟨99, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64, .f32⟩
  | .local _ .vmem, ⟨8, _⟩ => ⟨S64x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S2000x40_S2000x40 : S2000x40.ShapeCasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  dot_S2000x512_S512x64_S2000x64_1_0_0_1_n_n_wf : DotDims.WF S2000x512 S512x64 S2000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x40_S2000x40_1_0_0_1_n_n_wf : DotDims.WF S2000x64 S64x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x40, .f32⟩
  | .hbm, ⟨98, _⟩ => ⟨S3300000x1, .f32⟩
  | .hbm, ⟨99, _⟩ => ⟨S3300000x40, .f32⟩
  | .hbm, ⟨100, _⟩ => ⟨S3300000x40, .f32⟩
  | .hbm, ⟨101, _⟩ => ⟨S_, .f32⟩
  | .hbm, ⟨102, _⟩ => ⟨S100000x40, .f32⟩
  | .hbm, ⟨103, _⟩ => ⟨S3300000x1, .i32⟩
  | .hbm, ⟨104, _⟩ => ⟨S100000x40, .f32⟩
  | .hbm, ⟨105, _⟩ => ⟨S1x40, .f32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x40, .f32⟩
  | .hbm, ⟨115, _⟩ => ⟨S100000x40, .f32⟩
  | .hbm, ⟨116, _⟩ => ⟨S100000x40, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x40, .f32⟩
  | .hbm, ⟨122, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  dot_S100000x512_S512x64_S100000x64_1_0_0_1_n_n_wf : DotDims.WF S100000x512 S512x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RunValue.lean ====
/-
  The idealized kernel's run with its result NAMED. The program is three pipelined regions among stretches of host
  operations; the generated frame certificate already follows the contents of every buffer through that chain
  (`Gen.W0` … `Gen.W7`: the launch memory, then after each stretch and each region) and proves that every execution ends
  with every unscoped buffer at `Gen.W7`. Its stated post keeps only the six argument arrays; here the same run is
  stated once more keeping the result array as well: it ends at `Gen.W7` read at the result's buffer.
-/
import proofs.«174723_j44495861186966_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array holding what the chain of
    boundary contents gives it (`W7` at its buffer) and the argument arrays unchanged. -/
theorem run_result : θ_run defs (onTc (τ := τ) (main (F := F))) ⟨m, fun _ => 0, ρ⟩ (fun r => ∀ c : Dev nD,
      r.2.mem ((c.tc : Thread nD τ).loc main_v73) = W7 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v73 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Layers.lean ====
/-
  The two-layer graph convolution as ONE function of its six argument arrays, written over whole arrays with the
  host operations themselves, piece by piece:

    out = logsoftmax (Â · relu (Â · (x · W₁) + b₁) · W₂ + b₂),

  where Â is the normalised adjacency with self loops: for the edge list (src, dst) extended by the loops (v, v),
  deg v = #{edges into v}, dinv = deg^(-1/2) where deg > 0 and 0 elsewhere, and
  (Â · h) v = ∑_{edges e with dst e = v} dinv (src e) · dinv (dst e) · h (src e)   (a gather, a product, a scatter-add).
  Both programs compute exactly this composition; they differ only in HOW the three dense pieces — the two matrix
  products and the row-wise log-softmax — are evaluated (all rows at once, or 2000 rows at a time).
-/
import proofs.«174723_j44495861186966_1_alg».proof.ReferenceIdeal

noncomputable section

namespace Cert.Gcn

open Cert.ReferenceIdeal Idealize.ShloMosaic Idealize.ShloMosaic.TcCoe

variable {F : FTy → Type} [FloatOps F] [Facts₀]
open Facts₀

abbrev IVec (s : Shape) := (⟨s, .i32⟩ : BufTy).Contents (Elt F)
abbrev RVec (s : Shape) := (⟨s, .f32⟩ : BufTy).Contents (Elt F)

/-! ## The edge list with self loops -/

/-- Row `r` of the edge array followed by the loop endpoints 0, 1, …, 99999. -/
def endpoints (r : Nat) (hs : S2x3200000.Slices ![r, 0] S1x3200000) (e : IVec (F := F) S2x3200000) : IVec (F := F) S3300000 :=
  concatenate S3300000 0 [⟨S3200000, shapeCast _ (extractStridedSlice S1x3200000 ![r, 0] e hs) shapeCasts_S1x3200000_S3200000⟩, ⟨S100000, iotaInDim S100000 32 0⟩] concatenates_S3200000_S100000_S3300000_d0

/-- The source endpoint of every edge. -/
def src (e : IVec (F := F) S2x3200000) : IVec (F := F) S3300000 := endpoints 0 slices_S2x3200000_S1x3200000_0_0 e
/-- The destination endpoint of every edge. -/
def dst (e : IVec (F := F) S2x3200000) : IVec (F := F) S3300000 := endpoints 1 slices_S2x3200000_S1x3200000_1_0 e

/-- A negative node index counts from the end: `v < 0 ↦ v + 100000`. -/
def wrap (s : IVec (F := F) S3300000) : IVec (F := F) S3300000 :=
  select (cmpi .slt s (broadcastInDim S3300000 ![] bcast_S_S3300000 (constantI S_ 32 0#32)))
    (addi s (broadcastInDim S3300000 ![] bcast_S_S3300000 (constantI S_ 32 100000#32))) s

/-- An index list as a one-column table (the form a gather or a scatter takes it in). -/
def col (s : IVec (F := F) S3300000) : IVec (F := F) S3300000x1 :=
  broadcastInDim S3300000x1 ![0] bcast_S3300000_S3300000x1_0 s

/-! ## The degree normalisation -/

/-- The in-degree of every node, self loop included: ones scattered by destination and added. -/
def deg (e : IVec (F := F) S2x3200000) : RVec (F := F) S100000 :=
  Host.scatterAdd scatter_S100000_S3300000x1_S3300000_n_0_0_1
    (broadcastInDim S100000 ![] bcast_S_S100000 (constant (F := F) S_ .f32 0x00000000#32))
    (col (dst e))
    (broadcastInDim S3300000 ![] bcast_S_S3300000 (constant (F := F) S_ .f32 0x3F800000#32))

/-- `deg^(-1/2)` where the degree is positive, `0` elsewhere. -/
def dinv (e : IVec (F := F) S2x3200000) : RVec (F := F) S100000 :=
  select (cmpf .ogt (deg e) (broadcastInDim S100000 ![] bcast_S_S100000 (constant (F := F) S_ .f32 0x00000000#32)))
    (Host.rsqrt (deg e))
    (broadcastInDim S100000 ![] bcast_S_S100000 (id (constant (F := F) S_ .f32 0x00000000#32)))

/-- The weight of every edge, from the endpoint lists `s`, `d` and the per-node factor `n`: `n (s) · n (d)`. -/
def weight (s d : IVec (F := F) S3300000) (n : RVec (F := F) S100000) : RVec (F := F) S3300000 :=
  mulf (Host.gather gather_S100000_S3300000x1_S3300000_n_0_n_n_0_1_1 n (col (wrap s)))
    (Host.gather gather_S100000_S3300000x1_S3300000_n_0_n_n_0_1_1 n (col (wrap d)))

/-- The weight of every edge: `dinv (src) · dinv (dst)`. -/
def norm (e : IVec (F := F) S2x3200000) : RVec (F := F) S3300000 := weight (src e) (dst e) (dinv e)

/-! ## The aggregation `Â · h`, at the two feature widths -/

/-- `v ↦ ∑_{e : d e = v} weight e · h (s e)` for 64 features, from the endpoint lists and the per-node factor. -/
def aggregate64 (s d : IVec (F := F) S3300000) (n : RVec (F := F) S100000) (h : RVec (F := F) S100000x64) : RVec (F := F) S100000x64 :=
  Host.scatterAdd scatter_S100000x64_S3300000x1_S3300000x64_1_0_0_1
    (broadcastInDim S100000x64 ![] bcast_S_S100000x64 (constant (F := F) S_ .f32 0x00000000#32))
    (col d)
    (mulf (Host.gather gather_S100000x64_S3300000x1_S3300000x64_1_0_n_n_0_1_164 h (col (wrap s)))
      (broadcastInDim S3300000x64 ![0, 1] bcast_S3300000x1_S3300000x64_0_1
        (broadcastInDim S3300000x1 ![0] bcast_S3300000_S3300000x1_0 (weight s d n))))

/-- The same for 40 features. -/
def aggregate40 (s d : IVec (F := F) S3300000) (n : RVec (F := F) S100000) (h : RVec (F := F) S100000x40) : RVec (F := F) S100000x40 :=
  Host.scatterAdd scatter_S100000x40_S3300000x1_S3300000x40_1_0_0_1
    (broadcastInDim S100000x40 ![] bcast_S_S100000x40 (constant (F := F) S_ .f32 0x00000000#32))
    (col d)
    (mulf (Host.gather gather_S100000x40_S3300000x1_S3300000x40_1_0_n_n_0_1_140 h (col (wrap s)))
      (broadcastInDim S3300000x40 ![0, 1] bcast_S3300000x1_S3300000x40_0_1
        (broadcastInDim S3300000x1 ![0] bcast_S3300000_S3300000x1_0 (weight s d n))))

/-- `(Â · h) v = ∑_{e : dst e = v} norm e · h (src e)` for 64 features. -/
def agg64 (e : IVec (F := F) S2x3200000) (h : RVec (F := F) S100000x64) : RVec (F := F) S100000x64 :=
  aggregate64 (src e) (dst e) (dinv e) h

/-- The same for 40 features. -/
def agg40 (e : IVec (F := F) S2x3200000) (h : RVec (F := F) S100000x40) : RVec (F := F) S100000x40 :=
  aggregate40 (src e) (dst e) (dinv e) h

/-! ## The dense pieces -/

/-- `x · W₁`: all 100000 rows at once. -/
def dense1 (x : RVec (F := F) S100000x512) (w : RVec (F := F) S512x64) : RVec (F := F) S100000x64 :=
  Host.dotGeneral dot_S100000x512_S512x64_S100000x64_1_0_0_1_n_n none x w

/-- `relu (a + b₁)`, the bias added to every row. -/
def hidden (a : RVec (F := F) S100000x64) (b : RVec (F := F) S64) : RVec (F := F) S100000x64 :=
  maximumf (addf a (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- `relu (a + b₁) · W₂`. -/
def dense2 (a : RVec (F := F) S100000x64) (b : RVec (F := F) S64) (w : RVec (F := F) S64x40) : RVec (F := F) S100000x40 :=
  Host.dotGeneral dot_S100000x64_S64x40_S100000x40_1_0_0_1_n_n none (hidden a b) w

/-- `a + b₂`, the bias added to every row. -/
def logits (a : RVec (F := F) S100000x40) (b : RVec (F := F) S40) : RVec (F := F) S100000x40 :=
  addf a (broadcastInDim S100000x40 ![0, 1] bcast_S1x40_S100000x40_0_1 (broadcastInDim S1x40 ![1] bcast_S40_S1x40_1 b))

/-- Every row's maximum (from `-∞`). -/
def rowMax (z : RVec (F := F) S100000x40) : RVec (F := F) S100000 :=
  maximumf (broadcastInDim S100000 ![] bcast_S_S100000 (constant (F := F) S_ .f32 0xFF800000#32))
    (Host.reduce FloatOps.maximumf z (constant (F := F) S_ .f32 0xFF800000#32) reducesTo_S100000x40_S100000_d1 h_S_)

/-- A per-row number spread over the row's 40 places. -/
def spread (v : RVec (F := F) S100000) : RVec (F := F) S100000x40 :=
  broadcastInDim S100000x40 ![0, 1] bcast_S100000x1_S100000x40_0_1 (broadcastInDim S100000x1 ![0] bcast_S100000_S100000x1_0 v)

/-- The row shifted by its maximum. -/
def shifted (z : RVec (F := F) S100000x40) : RVec (F := F) S100000x40 := subf z (spread (rowMax z))

/-- `log_softmax` along each row: `(z - max) - log ∑ exp (z - max)`. -/
def logsoftmax (z : RVec (F := F) S100000x40) : RVec (F := F) S100000x40 :=
  subf (shifted z)
    (broadcastInDim S100000x40 ![0, 1] bcast_S100000x1_S100000x40_0_1
      (Host.log (broadcastInDim S100000x1 ![0] bcast_S100000_S100000x1_0
        (Host.reduceAdd (Host.exp (shifted z)) (constant (F := F) S_ .f32 0x00000000#32) reducesTo_S100000x40_S100000_d1 h_S_))))

/-! ## The network -/

/-- The whole forward pass. -/
def out (x : RVec (F := F) S100000x512) (e : IVec (F := F) S2x3200000) (w1 : RVec (F := F) S512x64) (b1 : RVec (F := F) S64)
    (w2 : RVec (F := F) S64x40) (b2 : RVec (F := F) S40) : RVec (F := F) S100000x40 :=
  logsoftmax (logits (agg40 e (dense2 (agg64 e (dense1 x w1)) b1 w2)) b2)

end Cert.Gcn

end
-- ==== Proof.RefRun.lean ====
/-
  The reference program's run, read back. Its @main is a straight line of 117 host operations, so every weakly fair
  execution terminates with each buffer at what the operations, applied in order to the launch contents, leave in it. Cut
  into the stretches that do one thing each — the edge list and the degree, the selection of the normalisation, the first
  product, the first aggregation, bias–relu–second product, the second aggregation, the bias, every row's maximum, the
  rest of the log-softmax — the line composes the network `Gcn.out` (Layers.lean) of the six argument arrays.
-/
import proofs.«174723_j44495861186966_1_alg».proof.Proof.Gen.ReferenceIdeal
import proofs.«174723_j44495861186966_1_alg».proof.Proof.Layers
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 117 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    binary main_arg0 main_arg2 main_v15 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v15 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v6 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v62 main_v63 (mulf : (⟨S3300000, .f32⟩ : BufTy).Contents (Elt F) → (⟨S3300000, .f32⟩ : BufTy).Contents (Elt F) → (⟨S3300000, .f32⟩ : BufTy).Contents (Elt F)),
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v3 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v3 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v3 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v48 main_v69 main_v70 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v63 main_v71 (broadcastInDim S3300000x1 ![0] bcast_S3300000_S3300000x1_0 : (⟨S3300000, .f32⟩ : BufTy).Contents (Elt F) → (⟨S3300000x1, .f32⟩ : BufTy).Contents (Elt F)),
    unary main_v71 main_v72 (broadcastInDim S3300000x40 ![0, 1] bcast_S3300000x1_S3300000x40_0_1 : (⟨S3300000x1, .f32⟩ : BufTy).Contents (Elt F) → (⟨S3300000x40, .f32⟩ : BufTy).Contents (Elt F)),
    binary main_v70 main_v72 main_v73 (mulf : (⟨S3300000x40, .f32⟩ : BufTy).Contents (Elt F) → (⟨S3300000x40, .f32⟩ : BufTy).Contents (Elt F) → (⟨S3300000x40, .f32⟩ : BufTy).Contents (Elt F)),
    nullary main_cst_15 (constant S_ .f32 0x00000000#32),
    unary main_cst_15 main_v74 (broadcastInDim S100000x40 ![] bcast_S_S100000x40 : (⟨S_, .f32⟩ : BufTy).Contents (Elt F) → (⟨S100000x40, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v77 (broadcastInDim S1x40 ![1] bcast_S40_S1x40_1 : (⟨S40, .f32⟩ : BufTy).Contents (Elt F) → (⟨S1x40, .f32⟩ : BufTy).Contents (Elt F)),
    unary main_v77 main_v78 (broadcastInDim S100000x40 ![0, 1] bcast_S1x40_S100000x40_0_1 : (⟨S1x40, .f32⟩ : BufTy).Contents (Elt F) → (⟨S100000x40, .f32⟩ : BufTy).Contents (Elt F)),
    binary main_v76 main_v78 main_v79 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v79) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v79) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v80) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The line cut into stretches -/

abbrev ops0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev ops1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev ops2 : List (HloOp τ sig (Elt F)) :=
  [ binary main_arg0 main_arg2 main_v15 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)) ]

abbrev ops3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v15 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

abbrev ops4 : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

abbrev ops5 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v6 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v62 main_v63 (mulf : (⟨S3300000, .f32⟩ : BufTy).Contents (Elt F) → (⟨S3300000, .f32⟩ : BufTy).Contents (Elt F) → (⟨S3300000, .f32⟩ : BufTy).Contents (Elt F)),
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v3 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v3 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v3 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v48 main_v69 main_v70 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v63 main_v71 (broadcastInDim S3300000x1 ![0] bcast_S3300000_S3300000x1_0 : (⟨S3300000, .f32⟩ : BufTy).Contents (Elt F) → (⟨S3300000x1, .f32⟩ : BufTy).Contents (Elt F)),
    unary main_v71 main_v72 (broadcastInDim S3300000x40 ![0, 1] bcast_S3300000x1_S3300000x40_0_1 : (⟨S3300000x1, .f32⟩ : BufTy).Contents (Elt F) → (⟨S3300000x40, .f32⟩ : BufTy).Contents (Elt F)),
    binary main_v70 main_v72 main_v73 (mulf : (⟨S3300000x40, .f32⟩ : BufTy).Contents (Elt F) → (⟨S3300000x40, .f32⟩ : BufTy).Contents (Elt F) → (⟨S3300000x40, .f32⟩ : BufTy).Contents (Elt F)),
    nullary main_cst_15 (constant S_ .f32 0x00000000#32),
    unary main_cst_15 main_v74 (broadcastInDim S100000x40 ![] bcast_S_S100000x40 : (⟨S_, .f32⟩ : BufTy).Contents (Elt F) → (⟨S100000x40, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

abbrev ops6 : List (HloOp τ sig (Elt F)) :=
  [ unary main_arg5 main_v77 (broadcastInDim S1x40 ![1] bcast_S40_S1x40_1 : (⟨S40, .f32⟩ : BufTy).Contents (Elt F) → (⟨S1x40, .f32⟩ : BufTy).Contents (Elt F)),
    unary main_v77 main_v78 (broadcastInDim S100000x40 ![0, 1] bcast_S1x40_S100000x40_0_1 : (⟨S1x40, .f32⟩ : BufTy).Contents (Elt F) → (⟨S100000x40, .f32⟩ : BufTy).Contents (Elt F)),
    binary main_v76 main_v78 main_v79 (addf : (⟨S100000x40, .f32⟩ : BufTy).Contents (Elt F) → (⟨S100000x40, .f32⟩ : BufTy).Contents (Elt F) → (⟨S100000x40, .f32⟩ : BufTy).Contents (Elt F)) ]

abbrev ops7 : List (HloOp τ sig (Elt F)) :=
  [ TRef.nullary (TRef.of (T := ⟨S_, .f32⟩) main_call2_cst) (constant S_ .f32 0xFF800000#32),
    TRef.binary (TRef.of (T := ⟨S100000x40, .f32⟩) main_v79) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

abbrev ops8 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v79) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v80) subf ]

set_option maxRecDepth 8192 in
theorem ops_eq : (ops : List (HloOp τ sig (Elt F))) = ops0 ++ (ops1 ++ (ops2 ++ (ops3 ++ (ops4 ++ (ops5 ++ (ops6 ++ (ops7 ++ ops8))))))) := rfl

/-- Applying a line of operations is applying its first part, then the rest. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each stretch, from ANY contents `X` of the buffers -/

section Stretches

variable (X : Valuation τ sig (Elt F))

/-- The first stretch leaves the source endpoints of the edges and loops, -/
theorem c0_src : after ops0 X (Proc.devRef .tc main_v3) = Cert.Gcn.src (F := F) (X (Proc.devRef .tc main_arg1)) := by after_results_simp <;> rfl
/-- the destination endpoints, -/
theorem c0_dst : after ops0 X (Proc.devRef .tc main_v6) = Cert.Gcn.dst (F := F) (X (Proc.devRef .tc main_arg1)) := by after_results_simp <;> rfl
/-- where the degree is positive, -/
theorem c0_pos : after ops0 X (Proc.devRef .tc main_v12)
    = cmpf .ogt (Cert.Gcn.deg (F := F) (X (Proc.devRef .tc main_arg1))) (broadcastInDim S100000 ![] bcast_S_S100000 (constant (F := F) S_ .f32 0x00000000#32)) := by
  after_results_simp <;> rfl
/-- the degree to the power -1/2, -/
theorem c0_rsqrt : after ops0 X (Proc.devRef .tc main_v13) = Host.rsqrt (F := F) (s := S100000) (φ := .f32) (Cert.Gcn.deg (F := F) (X (Proc.devRef .tc main_arg1))) := by
  after_results_simp <;> rfl
/-- and a zero. -/
theorem c0_zero : after ops0 X (Proc.devRef .tc main_cst_2) = (constant (F := F) S_ .f32 0x00000000#32 : (⟨S_, .f32⟩ : BufTy).Contents (Elt F)) := by
  after_results_simp <;> rfl
theorem c0_keep_arg0 : after ops0 X (Proc.devRef .tc main_arg0) = X (Proc.devRef .tc main_arg0) := by after_results_simp
theorem c0_keep_arg2 : after ops0 X (Proc.devRef .tc main_arg2) = X (Proc.devRef .tc main_arg2) := by after_results_simp
theorem c0_keep_arg3 : after ops0 X (Proc.devRef .tc main_arg3) = X (Proc.devRef .tc main_arg3) := by after_results_simp
theorem c0_keep_arg4 : after ops0 X (Proc.devRef .tc main_arg4) = X (Proc.devRef .tc main_arg4) := by after_results_simp
theorem c0_keep_arg5 : after ops0 X (Proc.devRef .tc main_arg5) = X (Proc.devRef .tc main_arg5) := by after_results_simp

/-- The second stretch selects between the last two by the first. -/
theorem c1_select (p : (⟨S100000, .i1⟩ : BufTy).Contents (Elt F)) (r : Cert.Gcn.RVec (F := F) S100000) (z : Cert.Gcn.RVec (F := F) S_)
    (hp : X (Proc.devRef .tc main_v12) = p) (hr : X (Proc.devRef .tc main_v13) = r) (hz : X (Proc.devRef .tc main_cst_2) = z) :
    after ops1 X (Proc.devRef .tc main_v14) = select p r (broadcastInDim S100000 ![] bcast_S_S100000 (id z)) := by
  subst hp hr hz
  after_results_simp <;> rfl
theorem c1_keep_v3 : after ops1 X (Proc.devRef .tc main_v3) = X (Proc.devRef .tc main_v3) := by after_results_simp
theorem c1_keep_v6 : after ops1 X (Proc.devRef .tc main_v6) = X (Proc.devRef .tc main_v6) := by after_results_simp
theorem c1_keep_arg0 : after ops1 X (Proc.devRef .tc main_arg0) = X (Proc.devRef .tc main_arg0) := by after_results_simp
theorem c1_keep_arg2 : after ops1 X (Proc.devRef .tc main_arg2) = X (Proc.devRef .tc main_arg2) := by after_results_simp
theorem c1_keep_arg3 : after ops1 X (Proc.devRef .tc main_arg3) = X (Proc.devRef .tc main_arg3) := by after_results_simp
theorem c1_keep_arg4 : after ops1 X (Proc.devRef .tc main_arg4) = X (Proc.devRef .tc main_arg4) := by after_results_simp
theorem c1_keep_arg5 : after ops1 X (Proc.devRef .tc main_arg5) = X (Proc.devRef .tc main_arg5) := by after_results_simp

/-- The first product. -/
theorem c2_dense (x : Cert.Gcn.RVec (F := F) S100000x512) (w : Cert.Gcn.RVec (F := F) S512x64) (hx : X (Proc.devRef .tc main_arg0) = x) (hw : X (Proc.devRef .tc main_arg2) = w) :
    after ops2 X (Proc.devRef .tc main_v15) = Cert.Gcn.dense1 (F := F) x w := by
  subst hx hw
  after_results_simp <;> rfl
theorem c2_keep_v3 : after ops2 X (Proc.devRef .tc main_v3) = X (Proc.devRef .tc main_v3) := by after_results_simp
theorem c2_keep_v6 : after ops2 X (Proc.devRef .tc main_v6) = X (Proc.devRef .tc main_v6) := by after_results_simp
theorem c2_keep_v14 : after ops2 X (Proc.devRef .tc main_v14) = X (Proc.devRef .tc main_v14) := by after_results_simp
theorem c2_keep_arg3 : after ops2 X (Proc.devRef .tc main_arg3) = X (Proc.devRef .tc main_arg3) := by after_results_simp
theorem c2_keep_arg4 : after ops2 X (Proc.devRef .tc main_arg4) = X (Proc.devRef .tc main_arg4) := by after_results_simp
theorem c2_keep_arg5 : after ops2 X (Proc.devRef .tc main_arg5) = X (Proc.devRef .tc main_arg5) := by after_results_simp

/-- The first aggregation over the edges. -/
theorem c3_agg (s d : Cert.Gcn.IVec (F := F) S3300000) (n : Cert.Gcn.RVec (F := F) S100000) (h : Cert.Gcn.RVec (F := F) S100000x64)
    (hs : X (Proc.devRef .tc main_v3) = s) (hd : X (Proc.devRef .tc main_v6) = d) (hn : X (Proc.devRef .tc main_v14) = n) (hh : X (Proc.devRef .tc main_v15) = h) :
    after ops3 X (Proc.devRef .tc main_v43) = Cert.Gcn.aggregate64 (F := F) s d n h := by
  subst hs hd hn hh
  after_results_simp <;> rfl
theorem c3_keep_v3 : after ops3 X (Proc.devRef .tc main_v3) = X (Proc.devRef .tc main_v3) := by after_results_simp
theorem c3_keep_v6 : after ops3 X (Proc.devRef .tc main_v6) = X (Proc.devRef .tc main_v6) := by after_results_simp
theorem c3_keep_v14 : after ops3 X (Proc.devRef .tc main_v14) = X (Proc.devRef .tc main_v14) := by after_results_simp
theorem c3_keep_arg3 : after ops3 X (Proc.devRef .tc main_arg3) = X (Proc.devRef .tc main_arg3) := by after_results_simp
theorem c3_keep_arg4 : after ops3 X (Proc.devRef .tc main_arg4) = X (Proc.devRef .tc main_arg4) := by after_results_simp
theorem c3_keep_arg5 : after ops3 X (Proc.devRef .tc main_arg5) = X (Proc.devRef .tc main_arg5) := by after_results_simp

/-- Bias, clamp at zero, second product. -/
theorem c4_dense (a : Cert.Gcn.RVec (F := F) S100000x64) (b : Cert.Gcn.RVec (F := F) S64) (w : Cert.Gcn.RVec (F := F) S64x40)
    (ha : X (Proc.devRef .tc main_v43) = a) (hb : X (Proc.devRef .tc main_arg3) = b) (hw : X (Proc.devRef .tc main_arg4) = w) :
    after ops4 X (Proc.devRef .tc main_v48) = Cert.Gcn.dense2 (F := F) a b w := by
  subst ha hb hw
  after_results_simp <;> rfl
theorem c4_keep_v3 : after ops4 X (Proc.devRef .tc main_v3) = X (Proc.devRef .tc main_v3) := by after_results_simp
theorem c4_keep_v6 : after ops4 X (Proc.devRef .tc main_v6) = X (Proc.devRef .tc main_v6) := by after_results_simp
theorem c4_keep_v14 : after ops4 X (Proc.devRef .tc main_v14) = X (Proc.devRef .tc main_v14) := by after_results_simp
theorem c4_keep_arg5 : after ops4 X (Proc.devRef .tc main_arg5) = X (Proc.devRef .tc main_arg5) := by after_results_simp

/-- The second aggregation over the edges. -/
theorem c5_agg (s d : Cert.Gcn.IVec (F := F) S3300000) (n : Cert.Gcn.RVec (F := F) S100000) (h : Cert.Gcn.RVec (F := F) S100000x40)
    (hs : X (Proc.devRef .tc main_v3) = s) (hd : X (Proc.devRef .tc main_v6) = d) (hn : X (Proc.devRef .tc main_v14) = n) (hh : X (Proc.devRef .tc main_v48) = h) :
    after ops5 X (Proc.devRef .tc main_v76) = Cert.Gcn.aggregate40 (F := F) s d n h := by
  subst hs hd hn hh
  after_results_simp <;> rfl
theorem c5_keep_arg5 : after ops5 X (Proc.devRef .tc main_arg5) = X (Proc.devRef .tc main_arg5) := by after_results_simp

/-- The bias on every row. -/
theorem c6_logits (a : Cert.Gcn.RVec (F := F) S100000x40) (b : Cert.Gcn.RVec (F := F) S40) (ha : X (Proc.devRef .tc main_v76) = a) (hb : X (Proc.devRef .tc main_arg5) = b) :
    after ops6 X (Proc.devRef .tc main_v79) = Cert.Gcn.logits (F := F) a b := by
  subst ha hb
  after_results_simp <;> rfl

/-- The stretch that takes every row's maximum, with its five functions left open: two constants `k₁`, `k₂`, a reduction `g`
    of the rows from `k₁`, a spreading `b` of `k₂`, and a combination `mx` — it leaves `mx (b k₂) (g z k₁)`. -/
theorem c7_shape (k1 k2 : (⟨S_, .f32⟩ : BufTy).Contents (Elt F)) (g : (⟨S100000x40, .f32⟩ : BufTy).Contents (Elt F) → (⟨S_, .f32⟩ : BufTy).Contents (Elt F) → (⟨S100000, .f32⟩ : BufTy).Contents (Elt F))
    (b : (⟨S_, .f32⟩ : BufTy).Contents (Elt F) → (⟨S100000, .f32⟩ : BufTy).Contents (Elt F)) (mx : (⟨S100000, .f32⟩ : BufTy).Contents (Elt F) → (⟨S100000, .f32⟩ : BufTy).Contents (Elt F) → (⟨S100000, .f32⟩ : BufTy).Contents (Elt F))
    (z : (⟨S100000x40, .f32⟩ : BufTy).Contents (Elt F)) (hz : X (Proc.devRef .tc main_v79) = z) :
    after ([ TRef.nullary (TRef.of (T := ⟨S_, .f32⟩) main_call2_cst) k1,
             TRef.binary (TRef.of (T := ⟨S100000x40, .f32⟩) main_v79) (TRef.of (T := ⟨S_, .f32⟩) main_call2_cst) (TRef.of (T := ⟨S100000, .f32⟩) main_call2_v0) g,
             TRef.nullary (TRef.of (T := ⟨S_, .f32⟩) main_call2_cst_0) k2,
             TRef.unary (TRef.of (T := ⟨S_, .f32⟩) main_call2_cst_0) (TRef.of (T := ⟨S100000, .f32⟩) main_call2_v1) b,
             TRef.binary (TRef.of (T := ⟨S100000, .f32⟩) main_call2_v1) (TRef.of (T := ⟨S100000, .f32⟩) main_call2_v0) (TRef.of (T := ⟨S100000, .f32⟩) main_call2_v2) mx ] :
           List (HloOp τ sig (Elt F))) X (Proc.devRef .tc main_call2_v2)
      = mx (b k2) (g z k1) := by
  subst hz
  after_results_simp <;> rfl

/-- Every row's maximum. -/
theorem c7_max (z : Cert.Gcn.RVec (F := F) S100000x40) (hz : X (Proc.devRef .tc main_v79) = z) :
    after ops7 X (Proc.devRef .tc main_call2_v2) = Cert.Gcn.rowMax (F := F) z :=
  c7_shape X (constant (F := F) S_ .f32 0xFF800000#32) (constant (F := F) S_ .f32 0xFF800000#32)
    (fun x v => Host.reduce FloatOps.maximumf x v reducesTo_S100000x40_S100000_d1 h_S_)
    (broadcastInDim S100000 ![] bcast_S_S100000) maximumf z hz
theorem c7_keep_v79 : after ops7 X (Proc.devRef .tc main_v79) = X (Proc.devRef .tc main_v79) := by after_results_simp

/-- The rest of the log-softmax, from the rows and their maxima. -/
def tail (z : Cert.Gcn.RVec (F := F) S100000x40) (mx : Cert.Gcn.RVec (F := F) S100000) : Cert.Gcn.RVec (F := F) S100000x40 :=
  subf (subf z (Cert.Gcn.spread mx))
    (broadcastInDim S100000x40 ![0, 1] bcast_S100000x1_S100000x40_0_1
      (Host.log (broadcastInDim S100000x1 ![0] bcast_S100000_S100000x1_0
        (Host.reduceAdd (Host.exp (subf z (Cert.Gcn.spread mx))) (constant (F := F) S_ .f32 0x00000000#32) reducesTo_S100000x40_S100000_d1 h_S_))))

theorem logsoftmax_eq_tail (z : Cert.Gcn.RVec (F := F) S100000x40) : Cert.Gcn.logsoftmax (F := F) z = tail z (Cert.Gcn.rowMax (F := F) z) := rfl

theorem c8_tail (z : Cert.Gcn.RVec (F := F) S100000x40) (mx : Cert.Gcn.RVec (F := F) S100000) (hz : X (Proc.devRef .tc main_v79) = z) (hm : X (Proc.devRef .tc main_call2_v2) = mx) :
    after ops8 X (Proc.devRef .tc main_v80) = tail z mx := by
  subst hz hm
  after_results_simp <;> rfl

end Stretches

/-! ## The boundaries, from any contents `X` at the launch -/

section Boundaries

variable (X : Valuation τ sig (Elt F))

abbrev Y1 : Valuation τ sig (Elt F) := after ops0 X
abbrev Y2 : Valuation τ sig (Elt F) := after ops1 (Y1 X)
abbrev Y3 : Valuation τ sig (Elt F) := after ops2 (Y2 X)
abbrev Y4 : Valuation τ sig (Elt F) := after ops3 (Y3 X)
abbrev Y5 : Valuation τ sig (Elt F) := after ops4 (Y4 X)
abbrev Y6 : Valuation τ sig (Elt F) := after ops5 (Y5 X)
abbrev Y7 : Valuation τ sig (Elt F) := after ops6 (Y6 X)
abbrev Y8 : Valuation τ sig (Elt F) := after ops7 (Y7 X)
abbrev Y9 : Valuation τ sig (Elt F) := after ops8 (Y8 X)

theorem Y2_src : Y2 X (Proc.devRef .tc main_v3) = Cert.Gcn.src (F := F) (X (Proc.devRef .tc main_arg1)) := (c1_keep_v3 (Y1 X)).trans (c0_src X)
theorem Y2_dst : Y2 X (Proc.devRef .tc main_v6) = Cert.Gcn.dst (F := F) (X (Proc.devRef .tc main_arg1)) := (c1_keep_v6 (Y1 X)).trans (c0_dst X)
theorem Y2_dinv : Y2 X (Proc.devRef .tc main_v14) = Cert.Gcn.dinv (F := F) (X (Proc.devRef .tc main_arg1)) :=
  (c1_select (Y1 X) _ _ _ (c0_pos X) (c0_rsqrt X) (c0_zero X)).trans rfl
theorem Y2_arg0 : Y2 X (Proc.devRef .tc main_arg0) = X (Proc.devRef .tc main_arg0) := (c1_keep_arg0 (Y1 X)).trans (c0_keep_arg0 X)
theorem Y2_arg2 : Y2 X (Proc.devRef .tc main_arg2) = X (Proc.devRef .tc main_arg2) := (c1_keep_arg2 (Y1 X)).trans (c0_keep_arg2 X)
theorem Y2_arg3 : Y2 X (Proc.devRef .tc main_arg3) = X (Proc.devRef .tc main_arg3) := (c1_keep_arg3 (Y1 X)).trans (c0_keep_arg3 X)
theorem Y2_arg4 : Y2 X (Proc.devRef .tc main_arg4) = X (Proc.devRef .tc main_arg4) := (c1_keep_arg4 (Y1 X)).trans (c0_keep_arg4 X)
theorem Y2_arg5 : Y2 X (Proc.devRef .tc main_arg5) = X (Proc.devRef .tc main_arg5) := (c1_keep_arg5 (Y1 X)).trans (c0_keep_arg5 X)

theorem Y3_dense : Y3 X (Proc.devRef .tc main_v15) = Cert.Gcn.dense1 (F := F) (X (Proc.devRef .tc main_arg0)) (X (Proc.devRef .tc main_arg2)) :=
  c2_dense (Y2 X) _ _ (Y2_arg0 X) (Y2_arg2 X)
theorem Y3_src : Y3 X (Proc.devRef .tc main_v3) = Cert.Gcn.src (F := F) (X (Proc.devRef .tc main_arg1)) := (c2_keep_v3 (Y2 X)).trans (Y2_src X)
theorem Y3_dst : Y3 X (Proc.devRef .tc main_v6) = Cert.Gcn.dst (F := F) (X (Proc.devRef .tc main_arg1)) := (c2_keep_v6 (Y2 X)).trans (Y2_dst X)
theorem Y3_dinv : Y3 X (Proc.devRef .tc main_v14) = Cert.Gcn.dinv (F := F) (X (Proc.devRef .tc main_arg1)) := (c2_keep_v14 (Y2 X)).trans (Y2_dinv X)
theorem Y3_arg3 : Y3 X (Proc.devRef .tc main_arg3) = X (Proc.devRef .tc main_arg3) := (c2_keep_arg3 (Y2 X)).trans (Y2_arg3 X)
theorem Y3_arg4 : Y3 X (Proc.devRef .tc main_arg4) = X (Proc.devRef .tc main_arg4) := (c2_keep_arg4 (Y2 X)).trans (Y2_arg4 X)
theorem Y3_arg5 : Y3 X (Proc.devRef .tc main_arg5) = X (Proc.devRef .tc main_arg5) := (c2_keep_arg5 (Y2 X)).trans (Y2_arg5 X)

theorem Y4_agg : Y4 X (Proc.devRef .tc main_v43) = Cert.Gcn.agg64 (F := F) (X (Proc.devRef .tc main_arg1)) (Cert.Gcn.dense1 (F := F) (X (Proc.devRef .tc main_arg0)) (X (Proc.devRef .tc main_arg2))) :=
  c3_agg (Y3 X) _ _ _ _ (Y3_src X) (Y3_dst X) (Y3_dinv X) (Y3_dense X)
theorem Y4_src : Y4 X (Proc.devRef .tc main_v3) = Cert.Gcn.src (F := F) (X (Proc.devRef .tc main_arg1)) := (c3_keep_v3 (Y3 X)).trans (Y3_src X)
theorem Y4_dst : Y4 X (Proc.devRef .tc main_v6) = Cert.Gcn.dst (F := F) (X (Proc.devRef .tc main_arg1)) := (c3_keep_v6 (Y3 X)).trans (Y3_dst X)
theorem Y4_dinv : Y4 X (Proc.devRef .tc main_v14) = Cert.Gcn.dinv (F := F) (X (Proc.devRef .tc main_arg1)) := (c3_keep_v14 (Y3 X)).trans (Y3_dinv X)
theorem Y4_arg3 : Y4 X (Proc.devRef .tc main_arg3) = X (Proc.devRef .tc main_arg3) := (c3_keep_arg3 (Y3 X)).trans (Y3_arg3 X)
theorem Y4_arg4 : Y4 X (Proc.devRef .tc main_arg4) = X (Proc.devRef .tc main_arg4) := (c3_keep_arg4 (Y3 X)).trans (Y3_arg4 X)
theorem Y4_arg5 : Y4 X (Proc.devRef .tc main_arg5) = X (Proc.devRef .tc main_arg5) := (c3_keep_arg5 (Y3 X)).trans (Y3_arg5 X)

theorem Y5_dense : Y5 X (Proc.devRef .tc main_v48)
    = Cert.Gcn.dense2 (F := F) (Cert.Gcn.agg64 (F := F) (X (Proc.devRef .tc main_arg1)) (Cert.Gcn.dense1 (F := F) (X (Proc.devRef .tc main_arg0)) (X (Proc.devRef .tc main_arg2))))
        (X (Proc.devRef .tc main_arg3)) (X (Proc.devRef .tc main_arg4)) :=
  c4_dense (Y4 X) _ _ _ (Y4_agg X) (Y4_arg3 X) (Y4_arg4 X)
theorem Y5_src : Y5 X (Proc.devRef .tc main_v3) = Cert.Gcn.src (F := F) (X (Proc.devRef .tc main_arg1)) := (c4_keep_v3 (Y4 X)).trans (Y4_src X)
theorem Y5_dst : Y5 X (Proc.devRef .tc main_v6) = Cert.Gcn.dst (F := F) (X (Proc.devRef .tc main_arg1)) := (c4_keep_v6 (Y4 X)).trans (Y4_dst X)
theorem Y5_dinv : Y5 X (Proc.devRef .tc main_v14) = Cert.Gcn.dinv (F := F) (X (Proc.devRef .tc main_arg1)) := (c4_keep_v14 (Y4 X)).trans (Y4_dinv X)
theorem Y5_arg5 : Y5 X (Proc.devRef .tc main_arg5) = X (Proc.devRef .tc main_arg5) := (c4_keep_arg5 (Y4 X)).trans (Y4_arg5 X)

theorem Y6_agg : Y6 X (Proc.devRef .tc main_v76)
    = Cert.Gcn.agg40 (F := F) (X (Proc.devRef .tc main_arg1)) (Cert.Gcn.dense2 (F := F) (Cert.Gcn.agg64 (F := F) (X (Proc.devRef .tc main_arg1)) (Cert.Gcn.dense1 (F := F) (X (Proc.devRef .tc main_arg0)) (X (Proc.devRef .tc main_arg2))))
        (X (Proc.devRef .tc main_arg3)) (X (Proc.devRef .tc main_arg4))) :=
  c5_agg (Y5 X) _ _ _ _ (Y5_src X) (Y5_dst X) (Y5_dinv X) (Y5_dense X)
theorem Y6_arg5 : Y6 X (Proc.devRef .tc main_arg5) = X (Proc.devRef .tc main_arg5) := (c5_keep_arg5 (Y5 X)).trans (Y5_arg5 X)

theorem Y7_logits : Y7 X (Proc.devRef .tc main_v79)
    = Cert.Gcn.logits (F := F) (Cert.Gcn.agg40 (F := F) (X (Proc.devRef .tc main_arg1)) (Cert.Gcn.dense2 (F := F) (Cert.Gcn.agg64 (F := F) (X (Proc.devRef .tc main_arg1)) (Cert.Gcn.dense1 (F := F) (X (Proc.devRef .tc main_arg0)) (X (Proc.devRef .tc main_arg2))))
        (X (Proc.devRef .tc main_arg3)) (X (Proc.devRef .tc main_arg4)))) (X (Proc.devRef .tc main_arg5)) :=
  c6_logits (Y6 X) _ _ (Y6_agg X) (Y6_arg5 X)

theorem Y9_out : Y9 X (Proc.devRef .tc main_v80)
    = Cert.Gcn.out (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) :=
  (c8_tail (Y8 X) _ _ ((c7_keep_v79 (Y7 X)).trans (Y7_logits X)) (c7_max (Y7 X) _ (Y7_logits X))).trans
    (logsoftmax_eq_tail _).symm

/-- The whole line is the stretches one after another. -/
theorem after_ops : after (ops : List (HloOp τ sig (Elt F))) X = Y9 X := by
  rw [ops_eq]
  simp only [after_append]

end Boundaries

set_option maxRecDepth 8192 in
set_option maxHeartbeats 46800000 in
/-- On every device, from any memory with zero counters: every weakly fair execution of @main terminates with the
    result at the network's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Cert.Gcn.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans ((congrFun (after_ops _) _).trans (Y9_out _)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.MatmulAt.lean ====
/-
  A matrix product read at one entry. A product with ONE contracted axis — rows of the left factor against columns of
  the right — is, at the entry (a, b), the sum over the inner index k of left (a, k) · right (k, b). The dimension
  records index that sum by a one-axis shape; re-indexed by the plain inner index k it reads the same for a 2000-row
  block and for the whole 100000-row array, which is what makes "block by block" and "all rows at once" agree.
-/
import proofs.«174723_j44495861186966_1_alg».proof.Proof.Gen.KernelIdeal
import proofs.«174723_j44495861186966_1_alg».proof.Proof.Gen.ReferenceIdeal
import Idealize.ShloMosaic.Lib.ValueIdx
import Idealize.ShloMosaic.PureOps.Ideal.Laws

noncomputable section

namespace Cert.Gcn.MatmulAt

open Idealize.ShloMosaic Idealize.ShloMosaic.ValueIdx

/-- The first layer's product on a block of 2000 rows: coordinates of the two factors' indices. -/
theorem block512_lhs0 (i : Cert.KernelIdeal.S2000x64.Idx) (q : Cert.KernelIdeal.dot_S2000x512_S512x64_S2000x64_1_0_0_1_n_n.contr.Idx) : (Cert.KernelIdeal.dot_S2000x512_S512x64_S2000x64_1_0_0_1_n_n.lhsIdx i q 0).val = (i 0).val := by
  unfold DotDims.lhsIdx
  rw [dif_neg (show ¬(0 : Fin Cert.KernelIdeal.S2000x512.rank) ∈ Cert.KernelIdeal.dot_S2000x512_S512x64_S2000x64_1_0_0_1_n_n.lhsBatch by decide), dif_pos (show (0 : Fin Cert.KernelIdeal.S2000x512.rank) ∈ Cert.KernelIdeal.dot_S2000x512_S512x64_S2000x64_1_0_0_1_n_n.lhsNonContracting by decide)]
  rfl
theorem block512_lhs1 (i : Cert.KernelIdeal.S2000x64.Idx) (q : Cert.KernelIdeal.dot_S2000x512_S512x64_S2000x64_1_0_0_1_n_n.contr.Idx) : (Cert.KernelIdeal.dot_S2000x512_S512x64_S2000x64_1_0_0_1_n_n.lhsIdx i q 1).val = (q ⟨0, by decide⟩).val :=
  Cert.KernelIdeal.dot_S2000x512_S512x64_S2000x64_1_0_0_1_n_n.lhsIdx_val_of_single rfl i q
theorem block512_rhs0 (i : Cert.KernelIdeal.S2000x64.Idx) (q : Cert.KernelIdeal.dot_S2000x512_S512x64_S2000x64_1_0_0_1_n_n.contr.Idx) : (Cert.KernelIdeal.dot_S2000x512_S512x64_S2000x64_1_0_0_1_n_n.rhsIdx i q 0).val = (q ⟨0, by decide⟩).val :=
  Cert.KernelIdeal.dot_S2000x512_S512x64_S2000x64_1_0_0_1_n_n.rhsIdx_val_of_single rfl i q
theorem block512_rhs1 (i : Cert.KernelIdeal.S2000x64.Idx) (q : Cert.KernelIdeal.dot_S2000x512_S512x64_S2000x64_1_0_0_1_n_n.contr.Idx) : (Cert.KernelIdeal.dot_S2000x512_S512x64_S2000x64_1_0_0_1_n_n.rhsIdx i q 1).val = (i 1).val := by
  unfold DotDims.rhsIdx
  rw [dif_neg (show ¬(1 : Fin Cert.KernelIdeal.S512x64.rank) ∈ Cert.KernelIdeal.dot_S2000x512_S512x64_S2000x64_1_0_0_1_n_n.rhsBatch by decide), dif_pos (show (1 : Fin Cert.KernelIdeal.S512x64.rank) ∈ Cert.KernelIdeal.dot_S2000x512_S512x64_S2000x64_1_0_0_1_n_n.rhsNonContracting by decide)]
  rfl

theorem block512 {φ₁ φ₂ : FTy} (l : FVec Ideal Cert.KernelIdeal.S2000x512 φ₁) (r : FVec Ideal Cert.KernelIdeal.S512x64 φ₂) (a : Fin 2000) (b : Fin 64) :
    (∑ k : Cert.KernelIdeal.dot_S2000x512_S512x64_S2000x64_1_0_0_1_n_n.contr.Idx, l (Cert.KernelIdeal.dot_S2000x512_S512x64_S2000x64_1_0_0_1_n_n.lhsIdx (ix2 a b) k) * r (Cert.KernelIdeal.dot_S2000x512_S512x64_S2000x64_1_0_0_1_n_n.rhsIdx (ix2 a b) k))
      = ∑ k : Fin 512, l (ix2 a k) * r (ix2 k b) := by
  rw [← Equiv.sum_comp (contrEquiv1 Cert.KernelIdeal.dot_S2000x512_S512x64_S2000x64_1_0_0_1_n_n 512 rfl rfl).symm]
  refine Finset.sum_congr rfl fun k _ => ?_
  have hk := contrEquiv1_symm_val Cert.KernelIdeal.dot_S2000x512_S512x64_S2000x64_1_0_0_1_n_n 512 rfl rfl k
  have el : Cert.KernelIdeal.dot_S2000x512_S512x64_S2000x64_1_0_0_1_n_n.lhsIdx (ix2 a b) ((contrEquiv1 Cert.KernelIdeal.dot_S2000x512_S512x64_S2000x64_1_0_0_1_n_n 512 rfl rfl).symm k) = ix2 a k := funext fun x => Fin.ext (by
    match x with
    | ⟨0, _⟩ => exact block512_lhs0 _ _
    | ⟨1, _⟩ => exact (block512_lhs1 _ _).trans hk)
  have er : Cert.KernelIdeal.dot_S2000x512_S512x64_S2000x64_1_0_0_1_n_n.rhsIdx (ix2 a b) ((contrEquiv1 Cert.KernelIdeal.dot_S2000x512_S512x64_S2000x64_1_0_0_1_n_n 512 rfl rfl).symm k) = ix2 k b := funext fun x => Fin.ext (by
    match x with
    | ⟨0, _⟩ => exact (block512_rhs0 _ _).trans hk
    | ⟨1, _⟩ => exact block512_rhs1 _ _)
  rw [el, er]

/-- The first layer's product on all rows: coordinates of the two factors' indices. -/
theorem whole512_lhs0 (i : Cert.ReferenceIdeal.S100000x64.Idx) (q : Cert.ReferenceIdeal.dot_S100000x512_S512x64_S100000x64_1_0_0_1_n_n.contr.Idx) : (Cert.ReferenceIdeal.dot_S100000x512_S512x64_S100000x64_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x64_S100000x64_1_0_0_1_n_n.lhsBatch by decide), dif_pos (show (0 : Fin Cert.ReferenceIdeal.S100000x512.rank) ∈ Cert.ReferenceIdeal.dot_S100000x512_S512x64_S100000x64_1_0_0_1_n_n.lhsNonContracting by decide)]
  rfl
theorem whole512_lhs1 (i : Cert.ReferenceIdeal.S100000x64.Idx) (q : Cert.ReferenceIdeal.dot_S100000x512_S512x64_S100000x64_1_0_0_1_n_n.contr.Idx) : (Cert.ReferenceIdeal.dot_S100000x512_S512x64_S100000x64_1_0_0_1_n_n.lhsIdx i q 1).val = (q ⟨0, by decide⟩).val :=
  Cert.ReferenceIdeal.dot_S100000x512_S512x64_S100000x64_1_0_0_1_n_n.lhsIdx_val_of_single rfl i q
theorem whole512_rhs0 (i : Cert.ReferenceIdeal.S100000x64.Idx) (q : Cert.ReferenceIdeal.dot_S100000x512_S512x64_S100000x64_1_0_0_1_n_n.contr.Idx) : (Cert.ReferenceIdeal.dot_S100000x512_S512x64_S100000x64_1_0_0_1_n_n.rhsIdx i q 0).val = (q ⟨0, by decide⟩).val :=
  Cert.ReferenceIdeal.dot_S100000x512_S512x64_S100000x64_1_0_0_1_n_n.rhsIdx_val_of_single rfl i q
theorem whole512_rhs1 (i : Cert.ReferenceIdeal.S100000x64.Idx) (q : Cert.ReferenceIdeal.dot_S100000x512_S512x64_S100000x64_1_0_0_1_n_n.contr.Idx) : (Cert.ReferenceIdeal.dot_S100000x512_S512x64_S100000x64_1_0_0_1_n_n.rhsIdx i q 1).val = (i 1).val := by
  unfold DotDims.rhsIdx
  rw [dif_neg (show ¬(1 : Fin Cert.ReferenceIdeal.S512x64.rank) ∈ Cert.ReferenceIdeal.dot_S100000x512_S512x64_S100000x64_1_0_0_1_n_n.rhsBatch by decide), dif_pos (show (1 : Fin Cert.ReferenceIdeal.S512x64.rank) ∈ Cert.ReferenceIdeal.dot_S100000x512_S512x64_S100000x64_1_0_0_1_n_n.rhsNonContracting by decide)]
  rfl

theorem whole512 {φ₁ φ₂ : FTy} (l : FVec Ideal Cert.ReferenceIdeal.S100000x512 φ₁) (r : FVec Ideal Cert.ReferenceIdeal.S512x64 φ₂) (a : Fin 100000) (b : Fin 64) :
    (∑ k : Cert.ReferenceIdeal.dot_S100000x512_S512x64_S100000x64_1_0_0_1_n_n.contr.Idx, l (Cert.ReferenceIdeal.dot_S100000x512_S512x64_S100000x64_1_0_0_1_n_n.lhsIdx (ix2 a b) k) * r (Cert.ReferenceIdeal.dot_S100000x512_S512x64_S100000x64_1_0_0_1_n_n.rhsIdx (ix2 a b) k))
      = ∑ k : Fin 512, l (ix2 a k) * r (ix2 k b) := by
  rw [← Equiv.sum_comp (contrEquiv1 Cert.ReferenceIdeal.dot_S100000x512_S512x64_S100000x64_1_0_0_1_n_n 512 rfl rfl).symm]
  refine Finset.sum_congr rfl fun k _ => ?_
  have hk := contrEquiv1_symm_val Cert.ReferenceIdeal.dot_S100000x512_S512x64_S100000x64_1_0_0_1_n_n 512 rfl rfl k
  have el : Cert.ReferenceIdeal.dot_S100000x512_S512x64_S100000x64_1_0_0_1_n_n.lhsIdx (ix2 a b) ((contrEquiv1 Cert.ReferenceIdeal.dot_S100000x512_S512x64_S100000x64_1_0_0_1_n_n 512 rfl rfl).symm k) = ix2 a k := funext fun x => Fin.ext (by
    match x with
    | ⟨0, _⟩ => exact whole512_lhs0 _ _
    | ⟨1, _⟩ => exact (whole512_lhs1 _ _).trans hk)
  have er : Cert.ReferenceIdeal.dot_S100000x512_S512x64_S100000x64_1_0_0_1_n_n.rhsIdx (ix2 a b) ((contrEquiv1 Cert.ReferenceIdeal.dot_S100000x512_S512x64_S100000x64_1_0_0_1_n_n 512 rfl rfl).symm k) = ix2 k b := funext fun x => Fin.ext (by
    match x with
    | ⟨0, _⟩ => exact (whole512_rhs0 _ _).trans hk
    | ⟨1, _⟩ => exact whole512_rhs1 _ _)
  rw [el, er]

/-- The second layer's product on a block of 2000 rows: coordinates of the two factors' indices. -/
theorem block64_lhs0 (i : Cert.KernelIdeal.S2000x40.Idx) (q : Cert.KernelIdeal.dot_S2000x64_S64x40_S2000x40_1_0_0_1_n_n.contr.Idx) : (Cert.KernelIdeal.dot_S2000x64_S64x40_S2000x40_1_0_0_1_n_n.lhsIdx i q 0).val = (i 0).val := by
  unfold DotDims.lhsIdx
  rw [dif_neg (show ¬(0 : Fin Cert.KernelIdeal.S2000x64.rank) ∈ Cert.KernelIdeal.dot_S2000x64_S64x40_S2000x40_1_0_0_1_n_n.lhsBatch by decide), dif_pos (show (0 : Fin Cert.KernelIdeal.S2000x64.rank) ∈ Cert.KernelIdeal.dot_S2000x64_S64x40_S2000x40_1_0_0_1_n_n.lhsNonContracting by decide)]
  rfl
theorem block64_lhs1 (i : Cert.KernelIdeal.S2000x40.Idx) (q : Cert.KernelIdeal.dot_S2000x64_S64x40_S2000x40_1_0_0_1_n_n.contr.Idx) : (Cert.KernelIdeal.dot_S2000x64_S64x40_S2000x40_1_0_0_1_n_n.lhsIdx i q 1).val = (q ⟨0, by decide⟩).val :=
  Cert.KernelIdeal.dot_S2000x64_S64x40_S2000x40_1_0_0_1_n_n.lhsIdx_val_of_single rfl i q
theorem block64_rhs0 (i : Cert.KernelIdeal.S2000x40.Idx) (q : Cert.KernelIdeal.dot_S2000x64_S64x40_S2000x40_1_0_0_1_n_n.contr.Idx) : (Cert.KernelIdeal.dot_S2000x64_S64x40_S2000x40_1_0_0_1_n_n.rhsIdx i q 0).val = (q ⟨0, by decide⟩).val :=
  Cert.KernelIdeal.dot_S2000x64_S64x40_S2000x40_1_0_0_1_n_n.rhsIdx_val_of_single rfl i q
theorem block64_rhs1 (i : Cert.KernelIdeal.S2000x40.Idx) (q : Cert.KernelIdeal.dot_S2000x64_S64x40_S2000x40_1_0_0_1_n_n.contr.Idx) : (Cert.KernelIdeal.dot_S2000x64_S64x40_S2000x40_1_0_0_1_n_n.rhsIdx i q 1).val = (i 1).val := by
  unfold DotDims.rhsIdx
  rw [dif_neg (show ¬(1 : Fin Cert.KernelIdeal.S64x40.rank) ∈ Cert.KernelIdeal.dot_S2000x64_S64x40_S2000x40_1_0_0_1_n_n.rhsBatch by decide), dif_pos (show (1 : Fin Cert.KernelIdeal.S64x40.rank) ∈ Cert.KernelIdeal.dot_S2000x64_S64x40_S2000x40_1_0_0_1_n_n.rhsNonContracting by decide)]
  rfl

theorem block64 {φ₁ φ₂ : FTy} (l : FVec Ideal Cert.KernelIdeal.S2000x64 φ₁) (r : FVec Ideal Cert.KernelIdeal.S64x40 φ₂) (a : Fin 2000) (b : Fin 40) :
    (∑ k : Cert.KernelIdeal.dot_S2000x64_S64x40_S2000x40_1_0_0_1_n_n.contr.Idx, l (Cert.KernelIdeal.dot_S2000x64_S64x40_S2000x40_1_0_0_1_n_n.lhsIdx (ix2 a b) k) * r (Cert.KernelIdeal.dot_S2000x64_S64x40_S2000x40_1_0_0_1_n_n.rhsIdx (ix2 a b) k))
      = ∑ k : Fin 64, l (ix2 a k) * r (ix2 k b) := by
  rw [← Equiv.sum_comp (contrEquiv1 Cert.KernelIdeal.dot_S2000x64_S64x40_S2000x40_1_0_0_1_n_n 64 rfl rfl).symm]
  refine Finset.sum_congr rfl fun k _ => ?_
  have hk := contrEquiv1_symm_val Cert.KernelIdeal.dot_S2000x64_S64x40_S2000x40_1_0_0_1_n_n 64 rfl rfl k
  have el : Cert.KernelIdeal.dot_S2000x64_S64x40_S2000x40_1_0_0_1_n_n.lhsIdx (ix2 a b) ((contrEquiv1 Cert.KernelIdeal.dot_S2000x64_S64x40_S2000x40_1_0_0_1_n_n 64 rfl rfl).symm k) = ix2 a k := funext fun x => Fin.ext (by
    match x with
    | ⟨0, _⟩ => exact block64_lhs0 _ _
    | ⟨1, _⟩ => exact (block64_lhs1 _ _).trans hk)
  have er : Cert.KernelIdeal.dot_S2000x64_S64x40_S2000x40_1_0_0_1_n_n.rhsIdx (ix2 a b) ((contrEquiv1 Cert.KernelIdeal.dot_S2000x64_S64x40_S2000x40_1_0_0_1_n_n 64 rfl rfl).symm k) = ix2 k b := funext fun x => Fin.ext (by
    match x with
    | ⟨0, _⟩ => exact (block64_rhs0 _ _).trans hk
    | ⟨1, _⟩ => exact block64_rhs1 _ _)
  rw [el, er]

/-- The second layer's product on all rows: coordinates of the two factors' indices. -/
theorem whole64_lhs0 (i : Cert.ReferenceIdeal.S100000x40.Idx) (q : Cert.ReferenceIdeal.dot_S100000x64_S64x40_S100000x40_1_0_0_1_n_n.contr.Idx) : (Cert.ReferenceIdeal.dot_S100000x64_S64x40_S100000x40_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x40_S100000x40_1_0_0_1_n_n.lhsBatch by decide), dif_pos (show (0 : Fin Cert.ReferenceIdeal.S100000x64.rank) ∈ Cert.ReferenceIdeal.dot_S100000x64_S64x40_S100000x40_1_0_0_1_n_n.lhsNonContracting by decide)]
  rfl
theorem whole64_lhs1 (i : Cert.ReferenceIdeal.S100000x40.Idx) (q : Cert.ReferenceIdeal.dot_S100000x64_S64x40_S100000x40_1_0_0_1_n_n.contr.Idx) : (Cert.ReferenceIdeal.dot_S100000x64_S64x40_S100000x40_1_0_0_1_n_n.lhsIdx i q 1).val = (q ⟨0, by decide⟩).val :=
  Cert.ReferenceIdeal.dot_S100000x64_S64x40_S100000x40_1_0_0_1_n_n.lhsIdx_val_of_single rfl i q
theorem whole64_rhs0 (i : Cert.ReferenceIdeal.S100000x40.Idx) (q : Cert.ReferenceIdeal.dot_S100000x64_S64x40_S100000x40_1_0_0_1_n_n.contr.Idx) : (Cert.ReferenceIdeal.dot_S100000x64_S64x40_S100000x40_1_0_0_1_n_n.rhsIdx i q 0).val = (q ⟨0, by decide⟩).val :=
  Cert.ReferenceIdeal.dot_S100000x64_S64x40_S100000x40_1_0_0_1_n_n.rhsIdx_val_of_single rfl i q
theorem whole64_rhs1 (i : Cert.ReferenceIdeal.S100000x40.Idx) (q : Cert.ReferenceIdeal.dot_S100000x64_S64x40_S100000x40_1_0_0_1_n_n.contr.Idx) : (Cert.ReferenceIdeal.dot_S100000x64_S64x40_S100000x40_1_0_0_1_n_n.rhsIdx i q 1).val = (i 1).val := by
  unfold DotDims.rhsIdx
  rw [dif_neg (show ¬(1 : Fin Cert.ReferenceIdeal.S64x40.rank) ∈ Cert.ReferenceIdeal.dot_S100000x64_S64x40_S100000x40_1_0_0_1_n_n.rhsBatch by decide), dif_pos (show (1 : Fin Cert.ReferenceIdeal.S64x40.rank) ∈ Cert.ReferenceIdeal.dot_S100000x64_S64x40_S100000x40_1_0_0_1_n_n.rhsNonContracting by decide)]
  rfl

theorem whole64 {φ₁ φ₂ : FTy} (l : FVec Ideal Cert.ReferenceIdeal.S100000x64 φ₁) (r : FVec Ideal Cert.ReferenceIdeal.S64x40 φ₂) (a : Fin 100000) (b : Fin 40) :
    (∑ k : Cert.ReferenceIdeal.dot_S100000x64_S64x40_S100000x40_1_0_0_1_n_n.contr.Idx, l (Cert.ReferenceIdeal.dot_S100000x64_S64x40_S100000x40_1_0_0_1_n_n.lhsIdx (ix2 a b) k) * r (Cert.ReferenceIdeal.dot_S100000x64_S64x40_S100000x40_1_0_0_1_n_n.rhsIdx (ix2 a b) k))
      = ∑ k : Fin 64, l (ix2 a k) * r (ix2 k b) := by
  rw [← Equiv.sum_comp (contrEquiv1 Cert.ReferenceIdeal.dot_S100000x64_S64x40_S100000x40_1_0_0_1_n_n 64 rfl rfl).symm]
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx (ix2 a b) ((contrEquiv1 Cert.ReferenceIdeal.dot_S100000x64_S64x40_S100000x40_1_0_0_1_n_n 64 rfl rfl).symm k) = ix2 a k := funext fun x => Fin.ext (by
    match x with
    | ⟨0, _⟩ => exact whole64_lhs0 _ _
    | ⟨1, _⟩ => exact (whole64_lhs1 _ _).trans hk)
  have er : Cert.ReferenceIdeal.dot_S100000x64_S64x40_S100000x40_1_0_0_1_n_n.rhsIdx (ix2 a b) ((contrEquiv1 Cert.ReferenceIdeal.dot_S100000x64_S64x40_S100000x40_1_0_0_1_n_n 64 rfl rfl).symm k) = ix2 k b := funext fun x => Fin.ext (by
    match x with
    | ⟨0, _⟩ => exact (whole64_rhs0 _ _).trans hk
    | ⟨1, _⟩ => exact whole64_rhs1 _ _)
  rw [el, er]

end Cert.Gcn.MatmulAt

end
-- ==== Proof.Dense1.lean ====
/-
  The first dense layer, block by block. Region 0 walks the 100000 rows of `x` in 50 blocks of 2000 rows; at block `t` it
  multiplies rows 2000·t … 2000·t + 1999 of `x` by the whole of `W₁` and writes the 2000 x 64 product back as the same rows
  of the result. Entry (r, q) of the result is therefore ∑ₖ x (r, k) · W₁ (k, q) — entry (r, q) of the product of the
  whole arrays — and the 50 blocks tile all 100000 rows, so the result array IS that product.
-/
import proofs.«174723_j44495861186966_1_alg».proof.Proof.Gen.KernelIdeal.Frame
import proofs.«174723_j44495861186966_1_alg».proof.Proof.Gen.ReferenceIdeal
import proofs.«174723_j44495861186966_1_alg».proof.Proof.Layers
import proofs.«174723_j44495861186966_1_alg».proof.Proof.MatmulAt
import Idealize.ShloMosaic.Lib.ValueIdx
import Idealize.ShloMosaic.Lib.Pipeline.Value
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat)

theorem origin2 : (![0, 0] : Fin 2 → Nat) = fun _ => 0 := funext fun a => by fin_cases a <;> rfl

/-- Where each window's block sits at grid point `t`: the row blocks of `x` and of the result are block `t`, the weight
    matrix is always its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at entry (p, q) of a block: the sum over the inner index. -/
theorem payload_at (x0 : Vec Ideal S2000x512 .f32) (x1 : Vec Ideal S512x64 .f32) (p : Fin 2000) (q : Fin 64) :
    k0_pay1 (F := Ideal) x0 x1 (ix2 p q) = ∑ k : Fin 512, x0 (ix2 p k) * x1 (ix2 k q) := by
  unfold k0_pay1
  exact (Ideal.matmul_constant_zero_apply dot_S2000x512_S512x64_S2000x64_1_0_0_1_n_n none (truncf .bf16 x0 _) (truncf .bf16 x1 _) (ix2 p q)).trans
    ((Cert.Gcn.MatmulAt.block512 (truncf .bf16 x0 _) (truncf .bf16 x1 _) p q).trans rfl)

/-- The whole-array product at entry (r, q): the same sum. -/
theorem dense1_at (x : Cert.Gcn.RVec (F := Ideal) Cert.ReferenceIdeal.S100000x512) (w : Cert.Gcn.RVec (F := Ideal) Cert.ReferenceIdeal.S512x64)
    (r : Fin 100000) (q : Fin 64) :
    Cert.Gcn.dense1 (F := Ideal) x w (ix2 r q) = ∑ k : Fin 512, x (ix2 r k) * w (ix2 k q) := by
  unfold Cert.Gcn.dense1
  simp only [Host.dotGeneral]
  exact (Ideal.dotGeneral_apply Cert.ReferenceIdeal.dot_S100000x512_S512x64_S100000x64_1_0_0_1_n_n none _ x w (ix2 r q)).trans
    (Cert.Gcn.MatmulAt.whole512 x w r q)

/-- Row `p` of a block that holds rows of `X` starting at row `r`'s place, against the same weights: the block's entry
    is the whole product's entry. -/
theorem point_eq (x0 : Vec Ideal S2000x512 .f32) (x1 : Vec Ideal S512x64 .f32)
    (X : Cert.Gcn.RVec (F := Ideal) Cert.ReferenceIdeal.S100000x512) (W : Cert.Gcn.RVec (F := Ideal) Cert.ReferenceIdeal.S512x64)
    (p : Fin 2000) (q : Fin 64) (r : Fin 100000)
    (h0 : ∀ k : Fin 512, x0 (ix2 p k) = X (ix2 r k)) (h1 : ∀ k : Fin 512, x1 (ix2 k q) = W (ix2 k q)) :
    k0_pay1 (F := Ideal) x0 x1 (ix2 p q) = Cert.Gcn.dense1 (F := Ideal) X W (ix2 r q) := by
  rw [payload_at, dense1_at]
  exact Finset.sum_congr rfl fun k _ => by rw [h0 k, h1 k]

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 V c).flushed 2 t = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x64) origin2]
  obtain ⟨e0, e1, e2, e3, e4, e5⟩ := index_facts t
  funext j
  obtain ⟨p, q, rfl⟩ : ∃ (p : Fin 2000) (q : Fin 64), j = ix2 p q := ⟨j 0, j 1, eq_ix2 j⟩
  have hN : grid0.N = 50 := N_0
  have ht : t.val < 50 := hN ▸ t.isLt
  have hr : t.val * 2000 + p.val < 100000 := by have := p.isLt; omega
  have hemb : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show k0_pay1 (iblk0 V c 0 t) (iblk0 V c 1 t) (ix2 p q)
    = Cert.Gcn.dense1 (F := Ideal) (V c main_arg0) (V c main_arg2) (((cfg0.win 2).blk t).view.emb (ix2 p q))
  rw [hemb]
  refine point_eq _ _ _ _ p q ⟨_, hr⟩ (fun k => ?_) (fun k => ?_)
  · show V c main_arg0 (((cfg0.win 0).blk t).view.emb (ix2 p k)) = V c main_arg0 (ix2 (⟨t.val * 2000 + p.val, hr⟩ : Fin 100000) k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 64 + 1 * q.val = q.val; omega

/-- An index of the result array lies in point `t`'s block iff each coordinate lies in the block's range. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v15).slice (win0_2.rect t)).set ↔ _
  rw [View.set_slice_whole, Rect.mem_set_unit]
  exact Iff.rfl

/-- Every row lies in some point's block: row `r` in block `r / 2000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  have hlt : (i 0).val / 2000 < grid0.N := by rw [hN]; omega
  obtain ⟨e0, e1, e2, e3, e4, e5⟩ := index_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e5]; omega

/-- The result array after region 0: the product of the whole arrays the region finds. -/
theorem final (c : Dev nD) :
    (dat0 V c).arrAt 2 cfg0.N = Cert.Gcn.dense1 (F := Ideal) (V c main_arg0) (V c main_arg2) :=
  (dat0 V c).arrAt_eq_of_cover 2 _ (fun t _ => flushed_eq V c t) cover

end Cert.KernelIdeal.Dense1

end
-- ==== Proof.Dense2.lean ====
/-
  The second dense layer, block by block. Region 1 walks the 100000 rows of the aggregated features `a` in 50 blocks of
  2000 rows; at block `t` it adds the bias `b₁` to rows 2000·t … 2000·t + 1999, clamps at zero, multiplies by the whole of `W₂`
  and writes the 2000 x 40 product back as the same rows of the result. Entry (r, q) of the result is therefore
  ∑ₖ max (a (r, k) + b₁ k) 0 · W₂ (k, q) — entry (r, q) of relu (a + b₁) · W₂ over the whole arrays — and the 50 blocks tile
  all 100000 rows.
-/
import proofs.«174723_j44495861186966_1_alg».proof.Proof.Gen.KernelIdeal.Frame
import proofs.«174723_j44495861186966_1_alg».proof.Proof.Gen.ReferenceIdeal
import proofs.«174723_j44495861186966_1_alg».proof.Proof.Layers
import proofs.«174723_j44495861186966_1_alg».proof.Proof.MatmulAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a <;> rfl

/-- Where each window's block sits at grid point `t`: the row blocks of `a` and of the result are block `t`, the bias and
    the weight matrix are always their one block. -/
theorem index_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The clamped, biased features at one place: `max (a + b) 0`. -/
def relu (a b : EReal) : EReal := max (a + b) (Ideal.ofBits .f32 0x00000000#32)

/-- The block's left factor at (p, k): the block's row with the bias added, clamped at zero. -/
theorem left_at (x0 : Vec Ideal S2000x64 .f32) (x1 : Vec Ideal S64 .f32) (p : Fin 2000) (k : Fin 64) :
    truncf .bf16 (maximumf (addf (shapeCast S2000x64 x0 shapeCasts_S2000x64_S2000x64)
        (broadcastTo S2000x64 (shapeCast S1x64 x1 shapeCasts_S64_S1x64) broadcasts_S1x64_S2000x64))
      (broadcast S2000x64 (Scalar.ofBits (F := Ideal) .f32 0x00000000#32))) bitsLt_bf16_f32 (ix2 p k)
    = relu (x0 (ix2 p k)) (x1 (ix1 k)) := by
  show max (shapeCast S2000x64 x0 shapeCasts_S2000x64_S2000x64 (ix2 p k)
      + broadcastTo S2000x64 (shapeCast S1x64 x1 shapeCasts_S64_S1x64) broadcasts_S1x64_S2000x64 (ix2 p k)) _ = _
  rw [shapeCast_self, broadcastTo_1b_ab_apply, shapeCast_a_1a_apply]
  rfl

/-- The body's product at entry (p, q) of a block. -/
theorem payload_at (x0 : Vec Ideal S2000x64 .f32) (x1 : Vec Ideal S64 .f32) (x2 : Vec Ideal S64x40 .f32) (p : Fin 2000) (q : Fin 40) :
    k1_pay1 (F := Ideal) x0 x1 x2 (ix2 p q) = ∑ k : Fin 64, relu (x0 (ix2 p k)) (x1 (ix1 k)) * x2 (ix2 k q) := by
  unfold k1_pay1
  refine (Ideal.matmul_constant_zero_apply dot_S2000x64_S64x40_S2000x40_1_0_0_1_n_n none _ (truncf .bf16 x2 _) (ix2 p q)).trans ?_
  refine (Cert.Gcn.MatmulAt.block64 _ (truncf .bf16 x2 _) p q).trans ?_
  refine Finset.sum_congr rfl fun k _ => ?_
  rw [left_at]
  rfl

/-- The whole arrays' clamped, biased features at (r, k). -/
theorem hidden_at (a : Cert.Gcn.RVec (F := Ideal) Cert.ReferenceIdeal.S100000x64) (b : Cert.Gcn.RVec (F := Ideal) Cert.ReferenceIdeal.S64)
    (r : Fin 100000) (k : Fin 64) :
    Cert.Gcn.hidden (F := Ideal) a b (ix2 r k) = relu (a (ix2 r k)) (b (ix1 k)) := by
  unfold Cert.Gcn.hidden
  show max (a (ix2 r k) + broadcastInDim Cert.ReferenceIdeal.S100000x64 ![0, 1] _ (broadcastInDim Cert.ReferenceIdeal.S1x64 ![1] _ b) (ix2 r k)) _ = _
  rw [broadcastInDim_apply ![0, 1] _ _ (ix2 r k) (ix2 (0 : Fin 1) k) (fun ax => by
        match ax with
        | ⟨0, _⟩ => rfl
        | ⟨1, _⟩ => rfl),
    broadcastInDim_apply ![1] _ b (ix2 (0 : Fin 1) k) (ix1 k) (fun ax => by
        match ax with
        | ⟨0, _⟩ => rfl)]
  rfl

/-- The whole-array product at entry (r, q): the same sum. -/
theorem dense2_at (a : Cert.Gcn.RVec (F := Ideal) Cert.ReferenceIdeal.S100000x64) (b : Cert.Gcn.RVec (F := Ideal) Cert.ReferenceIdeal.S64)
    (w : Cert.Gcn.RVec (F := Ideal) Cert.ReferenceIdeal.S64x40) (r : Fin 100000) (q : Fin 40) :
    Cert.Gcn.dense2 (F := Ideal) a b w (ix2 r q) = ∑ k : Fin 64, relu (a (ix2 r k)) (b (ix1 k)) * w (ix2 k q) := by
  unfold Cert.Gcn.dense2
  simp only [Host.dotGeneral]
  refine (Ideal.dotGeneral_apply Cert.ReferenceIdeal.dot_S100000x64_S64x40_S100000x40_1_0_0_1_n_n none _ (Cert.Gcn.hidden (F := Ideal) a b) w (ix2 r q)).trans ?_
  refine (Cert.Gcn.MatmulAt.whole64 (Cert.Gcn.hidden (F := Ideal) a b) w r q).trans ?_
  exact Finset.sum_congr rfl fun k _ => by rw [hidden_at]

/-- Row `p` of a block that holds rows of `A` starting at row `r`'s place, against the same bias and weights. -/
theorem point_eq (x0 : Vec Ideal S2000x64 .f32) (x1 : Vec Ideal S64 .f32) (x2 : Vec Ideal S64x40 .f32)
    (A : Cert.Gcn.RVec (F := Ideal) Cert.ReferenceIdeal.S100000x64) (B : Cert.Gcn.RVec (F := Ideal) Cert.ReferenceIdeal.S64)
    (W : Cert.Gcn.RVec (F := Ideal) Cert.ReferenceIdeal.S64x40)
    (p : Fin 2000) (q : Fin 40) (r : Fin 100000)
    (h0 : ∀ k : Fin 64, x0 (ix2 p k) = A (ix2 r k)) (h1 : ∀ k : Fin 64, x1 (ix1 k) = B (ix1 k))
    (h2 : ∀ k : Fin 64, x2 (ix2 k q) = W (ix2 k q)) :
    k1_pay1 (F := Ideal) x0 x1 x2 (ix2 p q) = Cert.Gcn.dense2 (F := Ideal) A B W (ix2 r q) := by
  rw [payload_at, dense2_at]
  exact Finset.sum_congr rfl fun k _ => by rw [h0 k, h1 k, h2 k]

variable (V : (c : Dev nD) → (b : Ref sig .tc) → Buf (Elt Ideal) ((c : Thread nD τ).loc b))

/-- What point `t` writes back is block `t` of the whole product of the arrays the region finds. -/
theorem flushed_eq (c : Dev nD) (t : Fin cfg1.N) :
    (dat1 V c).flushed 3 t = ((cfg1.win 3).blk t).view.read (Elt Ideal)
      (Cert.Gcn.dense2 (F := Ideal) (V c main_v43) (V c main_arg3) (V c main_arg4)) := by
  show (cfg1.win 3).cut (grid1.coords t) ((dat1 V c).after 3 t) = _
  rw [after1_3]
  unfold out1_3
  rw [View.canon_unit_zero origin2]
  simp only [View.ld_unit_zero (S := S2000x64) origin2, View.ld_unit_zero (S := S64) origin1, View.ld_unit_zero (S := S64x40) origin2]
  obtain ⟨e0, e1, e2, e3, e4, e5, e6⟩ := index_facts t
  funext j
  obtain ⟨p, q, rfl⟩ : ∃ (p : Fin 2000) (q : Fin 40), j = ix2 p q := ⟨j 0, j 1, eq_ix2 j⟩
  have hN : grid1.N = 50 := N_1
  have ht : t.val < 50 := hN ▸ t.isLt
  have hr : t.val * 2000 + p.val < 100000 := by have := p.isLt; omega
  have hemb : ((cfg1.win 3).blk t).view.emb (ix2 p q) = ix2 (⟨t.val * 2000 + p.val, hr⟩ : Fin 100000) q := by
    funext a; apply Fin.ext
    match a with
    | ⟨0, _⟩ => show win1_3.index t (0 : Fin 2) * 2000 + 1 * p.val = t.val * 2000 + p.val; omega
    | ⟨1, _⟩ => show win1_3.index t (1 : Fin 2) * 40 + 1 * q.val = q.val; omega
  show k1_pay1 (iblk1 V c 0 t) (iblk1 V c 1 t) (iblk1 V c 2 t) (ix2 p q)
    = Cert.Gcn.dense2 (F := Ideal) (V c main_v43) (V c main_arg3) (V c main_arg4) (((cfg1.win 3).blk t).view.emb (ix2 p q))
  rw [hemb]
  refine point_eq _ _ _ _ _ _ p q ⟨_, hr⟩ (fun k => ?_) (fun k => ?_) (fun k => ?_)
  · show V c main_v43 (((cfg1.win 0).blk t).view.emb (ix2 p k)) = V c main_v43 (ix2 (⟨t.val * 2000 + p.val, hr⟩ : Fin 100000) k)
    refine congrArg (V c main_v43) (funext fun a => Fin.ext ?_)
    match a with
    | ⟨0, _⟩ => show win1_0.index t (0 : Fin 2) * 2000 + 1 * p.val = t.val * 2000 + p.val; omega
    | ⟨1, _⟩ => show win1_0.index t (1 : Fin 2) * 64 + 1 * k.val = k.val; omega
  · show V c main_arg3 (((cfg1.win 1).blk t).view.emb (ix1 k)) = V c main_arg3 (ix1 k)
    refine congrArg (V c main_arg3) (funext fun a => Fin.ext ?_)
    match a with
    | ⟨0, _⟩ => show win1_1.index t (0 : Fin 1) * 64 + 1 * k.val = k.val; omega
  · show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 40 + 1 * q.val = q.val; omega

/-- An index of the result array lies in point `t`'s block iff each coordinate lies in the block's range. -/
theorem mem_blk (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v44).slice (win1_3.rect t)).set ↔ _
  rw [View.set_slice_whole, Rect.mem_set_unit]
  exact Iff.rfl

/-- Every row lies in some point's block: row `r` in block `r / 2000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 50 := N_1
  have hlt : (i 0).val / 2000 < grid1.N := by rw [hN]; omega
  obtain ⟨e0, e1, e2, e3, e4, e5, e6⟩ := index_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e5]; show (i 0).val / 2000 * 2000 ≤ (i 0).val ∧ (i 0).val < (i 0).val / 2000 * 2000 + 2000; omega
  | ⟨1, _⟩ =>
    show win1_3.index ⟨(i 0).val / 2000, hlt⟩ (1 : Fin 2) * 40 ≤ (i 1).val ∧ (i 1).val < win1_3.index ⟨(i 0).val / 2000, hlt⟩ (1 : Fin 2) * 40 + 40
    rw [e6]; omega

/-- The result array after region 1: `relu (a + b₁) · W₂` of the whole arrays the region finds. -/
theorem final (c : Dev nD) :
    (dat1 V c).arrAt 3 cfg1.N = Cert.Gcn.dense2 (F := Ideal) (V c main_v43) (V c main_arg3) (V c main_arg4) :=
  (dat1 V c).arrAt_eq_of_cover 3 _ (fun t _ => flushed_eq V c t) cover

end Cert.KernelIdeal.Dense2

end
-- ==== Proof.Chain.lean ====
/-
  The idealized kernel's result, followed through @main. Between the launch and the return the buffers pass eight
  boundaries (`Gen.W0` … `Gen.W7`): two stretches of host operations build the edge list with self loops and the degree
  normalisation; region 0 leaves `x · W₁`; a stretch aggregates it over the edges; region 1 leaves `relu (· + b₁) · W₂`;
  a stretch aggregates that; region 2 leaves the row-wise log-softmax of `· + b₂`. Reading the result's buffer back
  through the boundaries composes exactly the network `Gcn.out` of the launch contents of the six arguments.
-/
import proofs.«174723_j44495861186966_1_alg».proof.Proof.Gen.KernelIdeal.Frame
import proofs.«174723_j44495861186966_1_alg».proof.Proof.Gen.ReferenceIdeal
import proofs.«174723_j44495861186966_1_alg».proof.Proof.Layers
import proofs.«174723_j44495861186966_1_alg».proof.Proof.Dense1
import proofs.«174723_j44495861186966_1_alg».proof.Proof.Dense2
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## Each stretch of host operations, from ANY contents `X` of the buffers -/

section Stretches

variable (X : Valuation τ sig (Elt Ideal))

/-- The first stretch leaves the source endpoints of the edges and loops. -/
theorem glue0_src : after hostOps0 X (Proc.devRef .tc main_v3) = Cert.Gcn.src (F := Ideal) (X (Proc.devRef .tc main_arg1)) := by
  after_results_simp <;> rfl
/-- … the destination endpoints. -/
theorem glue0_dst : after hostOps0 X (Proc.devRef .tc main_v6) = Cert.Gcn.dst (F := Ideal) (X (Proc.devRef .tc main_arg1)) := by
  after_results_simp <;> rfl
/-- … where the degree is positive. -/
theorem glue0_pos : after hostOps0 X (Proc.devRef .tc main_v12)
    = cmpf .ogt (Cert.Gcn.deg (F := Ideal) (X (Proc.devRef .tc main_arg1)))
        (broadcastInDim Cert.ReferenceIdeal.S100000 ![] Cert.ReferenceIdeal.Facts₀.bcast_S_S100000 (constant (F := Ideal) Cert.ReferenceIdeal.S_ .f32 0x00000000#32)) := by
  after_results_simp <;> rfl
/-- … the degree to the power -1/2. -/
theorem glue0_rsqrt : after hostOps0 X (Proc.devRef .tc main_v13)
    = Host.rsqrt (F := Ideal) (s := Cert.ReferenceIdeal.S100000) (φ := .f32) (Cert.Gcn.deg (F := Ideal) (X (Proc.devRef .tc main_arg1))) := by
  after_results_simp <;> rfl
/-- … and a zero. -/
theorem glue0_zero : after hostOps0 X (Proc.devRef .tc main_cst_2)
    = (constant (F := Ideal) Cert.ReferenceIdeal.S_ .f32 0x00000000#32 : (⟨S_, .f32⟩ : BufTy).Contents (Elt Ideal)) := by
  after_results_simp <;> rfl

/-- The second stretch selects between the last two by the first. -/
theorem where_select (p : (⟨S100000, .i1⟩ : BufTy).Contents (Elt Ideal)) (r : (⟨S100000, .f32⟩ : BufTy).Contents (Elt Ideal))
    (z : (⟨S_, .f32⟩ : BufTy).Contents (Elt Ideal))
    (hp : X (Proc.devRef .tc main_v12) = p) (hr : X (Proc.devRef .tc main_v13) = r) (hz : X (Proc.devRef .tc main_cst_2) = z) :
    after hostOps0_1 X (Proc.devRef .tc main_v14) = select p r (broadcastInDim S100000 ![] bcast_S_S100000 (id z)) := by
  subst hp hr hz
  after_results_simp <;> rfl

/-- The stretch after region 0 aggregates region 0's result over the edges. -/
theorem glue1_agg (s d : Cert.Gcn.IVec (F := Ideal) Cert.ReferenceIdeal.S3300000) (n : Cert.Gcn.RVec (F := Ideal) Cert.ReferenceIdeal.S100000)
    (h : Cert.Gcn.RVec (F := Ideal) Cert.ReferenceIdeal.S100000x64)
    (hs : X (Proc.devRef .tc main_v3) = s) (hd : X (Proc.devRef .tc main_v6) = d) (hn : X (Proc.devRef .tc main_v14) = n)
    (hh : X (Proc.devRef .tc main_v15) = h) :
    after hostOps1 X (Proc.devRef .tc main_v43) = Cert.Gcn.aggregate64 (F := Ideal) s d n h := by
  subst hs hd hn hh
  after_results_simp <;> rfl

/-- The stretch after region 1 aggregates region 1's result over the edges. -/
theorem glue2_agg (s d : Cert.Gcn.IVec (F := Ideal) Cert.ReferenceIdeal.S3300000) (n : Cert.Gcn.RVec (F := Ideal) Cert.ReferenceIdeal.S100000)
    (h : Cert.Gcn.RVec (F := Ideal) Cert.ReferenceIdeal.S100000x40)
    (hs : X (Proc.devRef .tc main_v3) = s) (hd : X (Proc.devRef .tc main_v6) = d) (hn : X (Proc.devRef .tc main_v14) = n)
    (hh : X (Proc.devRef .tc main_v44) = h) :
    after hostOps2 X (Proc.devRef .tc main_v72) = Cert.Gcn.aggregate40 (F := Ideal) s d n h := by
  subst hs hd hn hh
  after_results_simp <;> rfl

/-! A stretch leaves every buffer it does not write as it was. -/
theorem glue0_keep_arg0 : after hostOps0 X (Proc.devRef .tc main_arg0) = X (Proc.devRef .tc main_arg0) := by after_results_simp
theorem glue0_keep_arg1 : after hostOps0 X (Proc.devRef .tc main_arg1) = X (Proc.devRef .tc main_arg1) := by after_results_simp
theorem glue0_keep_arg2 : after hostOps0 X (Proc.devRef .tc main_arg2) = X (Proc.devRef .tc main_arg2) := by after_results_simp
theorem glue0_keep_arg3 : after hostOps0 X (Proc.devRef .tc main_arg3) = X (Proc.devRef .tc main_arg3) := by after_results_simp
theorem glue0_keep_arg4 : after hostOps0 X (Proc.devRef .tc main_arg4) = X (Proc.devRef .tc main_arg4) := by after_results_simp
theorem glue0_keep_arg5 : after hostOps0 X (Proc.devRef .tc main_arg5) = X (Proc.devRef .tc main_arg5) := by after_results_simp
theorem where_keep_arg0 : after hostOps0_1 X (Proc.devRef .tc main_arg0) = X (Proc.devRef .tc main_arg0) := by after_results_simp
theorem where_keep_arg2 : after hostOps0_1 X (Proc.devRef .tc main_arg2) = X (Proc.devRef .tc main_arg2) := by after_results_simp
theorem where_keep_arg3 : after hostOps0_1 X (Proc.devRef .tc main_arg3) = X (Proc.devRef .tc main_arg3) := by after_results_simp
theorem where_keep_arg4 : after hostOps0_1 X (Proc.devRef .tc main_arg4) = X (Proc.devRef .tc main_arg4) := by after_results_simp
theorem where_keep_arg5 : after hostOps0_1 X (Proc.devRef .tc main_arg5) = X (Proc.devRef .tc main_arg5) := by after_results_simp
theorem where_keep_src : after hostOps0_1 X (Proc.devRef .tc main_v3) = X (Proc.devRef .tc main_v3) := by after_results_simp
theorem where_keep_dst : after hostOps0_1 X (Proc.devRef .tc main_v6) = X (Proc.devRef .tc main_v6) := by after_results_simp
theorem glue1_keep_src : after hostOps1 X (Proc.devRef .tc main_v3) = X (Proc.devRef .tc main_v3) := by after_results_simp
theorem glue1_keep_dst : after hostOps1 X (Proc.devRef .tc main_v6) = X (Proc.devRef .tc main_v6) := by after_results_simp
theorem glue1_keep_dinv : after hostOps1 X (Proc.devRef .tc main_v14) = X (Proc.devRef .tc main_v14) := by after_results_simp
theorem glue1_keep_arg3 : after hostOps1 X (Proc.devRef .tc main_arg3) = X (Proc.devRef .tc main_arg3) := by after_results_simp
theorem glue1_keep_arg4 : after hostOps1 X (Proc.devRef .tc main_arg4) = X (Proc.devRef .tc main_arg4) := by after_results_simp
theorem glue1_keep_arg5 : after hostOps1 X (Proc.devRef .tc main_arg5) = X (Proc.devRef .tc main_arg5) := by after_results_simp
theorem glue2_keep_arg5 : after hostOps2 X (Proc.devRef .tc main_arg5) = X (Proc.devRef .tc main_arg5) := by after_results_simp

end Stretches

/-! ## The boundaries of the actual run -/

section Boundaries

variable (m : (ℓ : Loc nD τ sig) → Buf (Elt Ideal) ℓ) (ρ : Dev nD → PrngReg) (c : Dev nD)

/-! ### At region 0's entry -/

theorem W2_src : W2 m ρ c (Proc.devRef .tc main_v3) = Cert.Gcn.src (F := Ideal) (m ((c.tc : Thread nD τ).loc main_arg1)) :=
  (where_keep_src (W1 m ρ c)).trans (glue0_src (W0 m ρ c))
theorem W2_dst : W2 m ρ c (Proc.devRef .tc main_v6) = Cert.Gcn.dst (F := Ideal) (m ((c.tc : Thread nD τ).loc main_arg1)) :=
  (where_keep_dst (W1 m ρ c)).trans (glue0_dst (W0 m ρ c))
theorem W2_dinv : W2 m ρ c (Proc.devRef .tc main_v14) = Cert.Gcn.dinv (F := Ideal) (m ((c.tc : Thread nD τ).loc main_arg1)) :=
  (where_select (W1 m ρ c) _ _ _ (glue0_pos (W0 m ρ c)) (glue0_rsqrt (W0 m ρ c)) (glue0_zero (W0 m ρ c))).trans rfl
theorem W2_arg0 : W2 m ρ c (Proc.devRef .tc main_arg0) = m ((c.tc : Thread nD τ).loc main_arg0) :=
  (where_keep_arg0 (W1 m ρ c)).trans (glue0_keep_arg0 (W0 m ρ c))
theorem W2_arg2 : W2 m ρ c (Proc.devRef .tc main_arg2) = m ((c.tc : Thread nD τ).loc main_arg2) :=
  (where_keep_arg2 (W1 m ρ c)).trans (glue0_keep_arg2 (W0 m ρ c))
theorem W2_arg3 : W2 m ρ c (Proc.devRef .tc main_arg3) = m ((c.tc : Thread nD τ).loc main_arg3) :=
  (where_keep_arg3 (W1 m ρ c)).trans (glue0_keep_arg3 (W0 m ρ c))
theorem W2_arg4 : W2 m ρ c (Proc.devRef .tc main_arg4) = m ((c.tc : Thread nD τ).loc main_arg4) :=
  (where_keep_arg4 (W1 m ρ c)).trans (glue0_keep_arg4 (W0 m ρ c))
theorem W2_arg5 : W2 m ρ c (Proc.devRef .tc main_arg5) = m ((c.tc : Thread nD τ).loc main_arg5) :=
  (where_keep_arg5 (W1 m ρ c)).trans (glue0_keep_arg5 (W0 m ρ c))

/-! ### At region 0's exit: the first dense layer is in place, everything else as it was -/

theorem W3_src : W3 m ρ c (Proc.devRef .tc main_v3) = Cert.Gcn.src (F := Ideal) (m ((c.tc : Thread nD τ).loc main_arg1)) :=
  (W3_of_ne m ρ c main_v3 (by decide)).trans (W2_src m ρ c)
theorem W3_dst : W3 m ρ c (Proc.devRef .tc main_v6) = Cert.Gcn.dst (F := Ideal) (m ((c.tc : Thread nD τ).loc main_arg1)) :=
  (W3_of_ne m ρ c main_v6 (by decide)).trans (W2_dst m ρ c)
theorem W3_dinv : W3 m ρ c (Proc.devRef .tc main_v14) = Cert.Gcn.dinv (F := Ideal) (m ((c.tc : Thread nD τ).loc main_arg1)) :=
  (W3_of_ne m ρ c main_v14 (by decide)).trans (W2_dinv m ρ c)
theorem W3_arg3 : W3 m ρ c (Proc.devRef .tc main_arg3) = m ((c.tc : Thread nD τ).loc main_arg3) :=
  (W3_of_ne m ρ c main_arg3 (by decide)).trans (W2_arg3 m ρ c)
theorem W3_arg4 : W3 m ρ c (Proc.devRef .tc main_arg4) = m ((c.tc : Thread nD τ).loc main_arg4) :=
  (W3_of_ne m ρ c main_arg4 (by decide)).trans (W2_arg4 m ρ c)
theorem W3_arg5 : W3 m ρ c (Proc.devRef .tc main_arg5) = m ((c.tc : Thread nD τ).loc main_arg5) :=
  (W3_of_ne m ρ c main_arg5 (by decide)).trans (W2_arg5 m ρ c)
theorem W3_dense1 : W3 m ρ c (Proc.devRef .tc main_v15)
    = Cert.Gcn.dense1 (F := Ideal) (m ((c.tc : Thread nD τ).loc main_arg0)) (m ((c.tc : Thread nD τ).loc main_arg2)) :=
  (W3_arr m ρ c 2).trans ((Cert.KernelIdeal.Dense1.final (V2 m ρ) c).trans
    (congrArg₂ (Cert.Gcn.dense1 (F := Ideal)) (W2_arg0 m ρ c) (W2_arg2 m ρ c)))

/-! ### At region 1's entry: the first aggregation -/

theorem W4_agg : W4 m ρ c (Proc.devRef .tc main_v43)
    = Cert.Gcn.agg64 (F := Ideal) (m ((c.tc : Thread nD τ).loc main_arg1))
        (Cert.Gcn.dense1 (F := Ideal) (m ((c.tc : Thread nD τ).loc main_arg0)) (m ((c.tc : Thread nD τ).loc main_arg2))) :=
  glue1_agg (W3 m ρ c) _ _ _ _ (W3_src m ρ c) (W3_dst m ρ c) (W3_dinv m ρ c) (W3_dense1 m ρ c)
theorem W4_src : W4 m ρ c (Proc.devRef .tc main_v3) = Cert.Gcn.src (F := Ideal) (m ((c.tc : Thread nD τ).loc main_arg1)) :=
  (glue1_keep_src (W3 m ρ c)).trans (W3_src m ρ c)
theorem W4_dst : W4 m ρ c (Proc.devRef .tc main_v6) = Cert.Gcn.dst (F := Ideal) (m ((c.tc : Thread nD τ).loc main_arg1)) :=
  (glue1_keep_dst (W3 m ρ c)).trans (W3_dst m ρ c)
theorem W4_dinv : W4 m ρ c (Proc.devRef .tc main_v14) = Cert.Gcn.dinv (F := Ideal) (m ((c.tc : Thread nD τ).loc main_arg1)) :=
  (glue1_keep_dinv (W3 m ρ c)).trans (W3_dinv m ρ c)
theorem W4_arg3 : W4 m ρ c (Proc.devRef .tc main_arg3) = m ((c.tc : Thread nD τ).loc main_arg3) :=
  (glue1_keep_arg3 (W3 m ρ c)).trans (W3_arg3 m ρ c)
theorem W4_arg4 : W4 m ρ c (Proc.devRef .tc main_arg4) = m ((c.tc : Thread nD τ).loc main_arg4) :=
  (glue1_keep_arg4 (W3 m ρ c)).trans (W3_arg4 m ρ c)
theorem W4_arg5 : W4 m ρ c (Proc.devRef .tc main_arg5) = m ((c.tc : Thread nD τ).loc main_arg5) :=
  (glue1_keep_arg5 (W3 m ρ c)).trans (W3_arg5 m ρ c)

/-! ### At region 1's exit: the second dense layer is in place -/

theorem W5_src : W5 m ρ c (Proc.devRef .tc main_v3) = Cert.Gcn.src (F := Ideal) (m ((c.tc : Thread nD τ).loc main_arg1)) :=
  (W5_of_ne m ρ c main_v3 (by decide)).trans (W4_src m ρ c)
theorem W5_dst : W5 m ρ c (Proc.devRef .tc main_v6) = Cert.Gcn.dst (F := Ideal) (m ((c.tc : Thread nD τ).loc main_arg1)) :=
  (W5_of_ne m ρ c main_v6 (by decide)).trans (W4_dst m ρ c)
theorem W5_dinv : W5 m ρ c (Proc.devRef .tc main_v14) = Cert.Gcn.dinv (F := Ideal) (m ((c.tc : Thread nD τ).loc main_arg1)) :=
  (W5_of_ne m ρ c main_v14 (by decide)).trans (W4_dinv m ρ c)
theorem W5_arg5 : W5 m ρ c (Proc.devRef .tc main_arg5) = m ((c.tc : Thread nD τ).loc main_arg5) :=
  (W5_of_ne m ρ c main_arg5 (by decide)).trans (W4_arg5 m ρ c)
theorem W5_dense2 : W5 m ρ c (Proc.devRef .tc main_v44)
    = Cert.Gcn.dense2 (F := Ideal)
        (Cert.Gcn.agg64 (F := Ideal) (m ((c.tc : Thread nD τ).loc main_arg1))
          (Cert.Gcn.dense1 (F := Ideal) (m ((c.tc : Thread nD τ).loc main_arg0)) (m ((c.tc : Thread nD τ).loc main_arg2))))
        (m ((c.tc : Thread nD τ).loc main_arg3)) (m ((c.tc : Thread nD τ).loc main_arg4)) :=
  (W5_arr m ρ c 3).trans ((Cert.KernelIdeal.Dense2.final (V4 m ρ) c).trans
    (by rw [show V4 m ρ c main_v43 = _ from W4_agg m ρ c, show V4 m ρ c main_arg3 = _ from W4_arg3 m ρ c,
          show V4 m ρ c main_arg4 = _ from W4_arg4 m ρ c]))

/-! ### At region 2's entry: the second aggregation -/

theorem W6_agg : W6 m ρ c (Proc.devRef .tc main_v72)
    = Cert.Gcn.agg40 (F := Ideal) (m ((c.tc : Thread nD τ).loc main_arg1))
        (Cert.Gcn.dense2 (F := Ideal)
          (Cert.Gcn.agg64 (F := Ideal) (m ((c.tc : Thread nD τ).loc main_arg1))
            (Cert.Gcn.dense1 (F := Ideal) (m ((c.tc : Thread nD τ).loc main_arg0)) (m ((c.tc : Thread nD τ).loc main_arg2))))
          (m ((c.tc : Thread nD τ).loc main_arg3)) (m ((c.tc : Thread nD τ).loc main_arg4))) :=
  glue2_agg (W5 m ρ c) _ _ _ _ (W5_src m ρ c) (W5_dst m ρ c) (W5_dinv m ρ c) (W5_dense2 m ρ c)
theorem W6_arg5 : W6 m ρ c (Proc.devRef .tc main_arg5) = m ((c.tc : Thread nD τ).loc main_arg5) :=
  (glue2_keep_arg5 (W5 m ρ c)).trans (W5_arg5 m ρ c)

end Boundaries

end Cert.KernelIdeal.Chain

end
-- ==== Proof.SoftmaxRow.lean ====
/-
  The log-softmax of ONE ROW, read at one place, as one closed expression.

  For a row `z` of 40 extended reals put  max z = the fold of `max` from `⊥` over the 40 entries  and

      logSoftmaxAt z q = (z q − max z) − log ∑ⱼ exp (z j − max z).

  Two programs compute it. The vector unit takes a block of 2000 rows: it adds the bias row to every row, reduces each
  row by `max` from `-∞`, casts the 2000 maxima to a column, spreads the column over the 40 places, subtracts,
  exponentiates, reduces each row by `+`, casts, takes the logarithm, spreads and subtracts again. The host does the same
  on all 100000 rows at once with its own operations: its row maximum takes one more `max` with `-∞` (the identity on
  the extended reals, whose bottom `-∞` is) and its row sum starts from `0` (`0 + ∑ = ∑`). At the ideal values every
  operation is exact, so both read, at row `r` and place `q`, as `logSoftmaxAt` of that row of logits:

    `kernel_at`:  the block's stored value at `(p, q)` = logSoftmaxAt (fun j => x0 (p, j) + x1 j) q
    `host_at`:    the host's log-softmax at `(r, q)` = logSoftmaxAt (fun j => a (r, j) + b j) q.

  The steps: the layout operations in their column forms read at an index (a vector cast to a column, a column spread
  over a row, and the host's `broadcast_in_dim` forms of a row and of a column); a reduction along the rows of a
  matrix read as a fold of `max` or a `Fin`-indexed sum over the row (the reduced index `p` with the column `k` put
  back is `(p, k)`); then the composition, named piece by piece.
-/
import proofs.«174723_j44495861186966_1_alg».proof.Proof.Gen.KernelIdeal.Skeleton
import proofs.«174723_j44495861186966_1_alg».proof.Proof.Layers
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.Gcn.Row

variable {α : Type}

/-! ## Column forms of the layout operations -/

/-- A vector `[a]` cast to one column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast over `b` columns reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same as a `broadcast_in_dim` along both axes. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` repeated over `a` rows by a `broadcast_in_dim` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` made one row `[1, b]` by a `broadcast_in_dim` reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A vector `[a]` made one column `[a, 1]` by a `broadcast_in_dim` reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-! ## A reduction along the rows of a matrix -/

/-- The row index `p` with the column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  match c with
  | ⟨0, _⟩ => rfl
  | ⟨1, _⟩ => rfl

end Cert.Gcn.Row

namespace Cert.Gcn.Row

/-! ## The two row reductions, on the vector unit and on the host -/

/-- The pattern of `-∞` denotes the bottom of the extended reals. -/
theorem ofBits_negInf_f32 : Ideal.ofBits .f32 0xFF800000#32 = ⊥ := by simp [Ideal.ofBits, Ideal.ieee]

/-- A `multi_reduction <maximumf>` along the rows of an `[a, b]` matrix, from `-∞`, is at row `p` the maximum of the row's `b`
    entries (the fold of `max` from `⊥`). -/
theorem multiReduction_maximumf_row {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction (F := Ideal) .maximumf [1] ⟨1, ![a]⟩ src 0xFF800000#32 h hφ hacc (ix1 p)
      = (Finset.univ : Finset (Fin b)).fold max ⊥ (fun j => src (ix2 p j)) := by
  refine (Ideal.multiReduction_maximumf_single src _ h hφ hacc (ix1 p)).trans ?_
  have hf : (src ∘ h.lift (ix1 p)) = fun j : Fin b => src (ix2 p j) := funext fun k => congrArg src (lift_row h p k)
  exact congrArg₂ (fun (i : EReal) (f : Fin b → EReal) => (Finset.univ : Finset (Fin b)).fold max i f) ofBits_negInf_f32 hf

/-- A `multi_reduction <add>` along the rows of an `[a, b]` matrix is at row `p` the sum of the row's `b` entries. -/
theorem multiReduction_add_row {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction (F := Ideal) .add [1] ⟨1, ![a]⟩ src 0x00000000#32 h hφ hacc (ix1 p) = ∑ j : Fin b, src (ix2 p j) :=
  (Ideal.multiReduction_add_single src _ h hφ hacc (ix1 p)).trans
    (Fintype.sum_congr _ _ fun k => congrArg src (lift_row h p k))

/-- The host's reduce with a maximum body along the rows, from `-∞`, is at row `p` the same fold. -/
theorem hostReduce_maximumf_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (p : Fin a) :
    Host.reduce FloatOps.maximumf x (constant (F := Ideal) (⟨0, ![]⟩ : Shape) .f32 0xFF800000#32) h' hu (ix1 p)
      = (Finset.univ : Finset (Fin b)).fold max ⊥ (fun j => x (ix2 p j)) := by
  have h : (⟨2, ![a, b]⟩ : Shape).Reduces [1] (⟨1, ![a]⟩ : Shape) := ⟨h'.1, Nat.one_pos, h'.2⟩
  refine (Host.reduce_eq_fold_single FloatOps.maximumf x _ h' h hu (ix1 p)).trans ?_
  have hf : (x ∘ h.lift (ix1 p)) = fun j : Fin b => x (ix2 p j) := funext fun k => congrArg x (lift_row h p k)
  exact congrArg₂ (fun (i : EReal) (f : Fin b → EReal) => (Finset.univ : Finset (Fin b)).fold max i f) ofBits_negInf_f32 hf

/-- The host's sum along the rows, from `0`, is at row `p` the sum of the row's `b` entries. -/
theorem hostReduceAdd_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (p : Fin a) :
    Host.reduceAdd (F := Ideal) x (constant (F := Ideal) (⟨0, ![]⟩ : Shape) .f32 0x00000000#32) h' hu (ix1 p)
      = ∑ j : Fin b, x (ix2 p j) := by
  have h : (⟨2, ![a, b]⟩ : Shape).Reduces [1] (⟨1, ![a]⟩ : Shape) := ⟨h'.1, Nat.one_pos, h'.2⟩
  refine (Ideal.hostReduceAdd_single h' h x _ (ix1 p)).trans ?_
  refine (congrArg (fun i : EReal => i + ∑ k : Fin b, x (h.lift (ix1 p) k)) Ideal.ofBits_zero_f32).trans ?_
  refine (zero_add _).trans ?_
  exact Fintype.sum_congr _ _ fun k => congrArg x (lift_row h p k)

end Cert.Gcn.Row

namespace Cert.Gcn.Row

/-! ## The row's log-softmax as one closed expression -/

/-- The maximum of a row of 40 extended reals: the fold of `max` from `⊥`. -/
def rowMax (z : Fin 40 → EReal) : EReal := (Finset.univ : Finset (Fin 40)).fold max ⊥ z

/-- The log-softmax of a row, at entry `q`: `(z q − max z) − log ∑ⱼ exp (z j − max z)`. -/
def logSoftmaxAt (z : Fin 40 → EReal) (q : Fin 40) : EReal :=
  (z q - rowMax z) - Ideal.log (∑ j : Fin 40, Ideal.exp (z j - rowMax z))

end Cert.Gcn.Row

namespace Cert.Gcn.Row

/-! ## The vector unit's log-softmax of the rows of a block -/

section Block
variable {a : ℕ} (v : FVec Ideal ⟨2, ![a, 40]⟩ .f32)
  (h : (⟨2, ![a, 40]⟩ : Shape).Reduces [1] (⟨1, ![a]⟩ : Shape))
  (sc : (⟨1, ![a]⟩ : Shape).ShapeCasts ⟨2, ![a, 1]⟩)
  (bc : (⟨2, ![a, 1]⟩ : Shape).Broadcasts ⟨2, ![a, 40]⟩)

/-- Every row's maximum, as one column spread over the row's 40 places. -/
def blockRowMax : FVec Ideal ⟨2, ![a, 40]⟩ .f32 :=
  broadcastTo ⟨2, ![a, 40]⟩
    (shapeCast ⟨2, ![a, 1]⟩ (multiReduction (F := Ideal) .maximumf [1] ⟨1, ![a]⟩ v 0xFF800000#32 h (.inl rfl) rfl) sc) bc

theorem blockRowMax_apply (p : Fin a) (c : Fin 40) : blockRowMax v h sc bc (ix2 p c) = rowMax fun j => v (ix2 p j) :=
  (broadcastTo_a1_ab_apply _ bc p c).trans
    ((shapeCast_a_a1_apply _ sc p 0).trans (multiReduction_maximumf_row v h _ _ p))

/-- Every row shifted by its maximum. -/
def blockShifted : FVec Ideal ⟨2, ![a, 40]⟩ .f32 := subf v (blockRowMax v h sc bc)

theorem blockShifted_apply (p : Fin a) (c : Fin 40) :
    blockShifted v h sc bc (ix2 p c) = v (ix2 p c) - rowMax fun j => v (ix2 p j) :=
  congrArg (fun y : EReal => v (ix2 p c) - y) (blockRowMax_apply v h sc bc p c)

/-- The logarithm of every row's sum of exponentials, spread over the row's 40 places. -/
def blockLogSumExp (d : FVec Ideal ⟨2, ![a, 40]⟩ .f32) : FVec Ideal ⟨2, ![a, 40]⟩ .f32 :=
  broadcastTo ⟨2, ![a, 40]⟩
    (log (shapeCast ⟨2, ![a, 1]⟩
      (multiReduction (F := Ideal) .add [1] ⟨1, ![a]⟩ (exp d) 0x00000000#32 h (.inl rfl) rfl) sc)) bc

theorem blockLogSumExp_apply (d : FVec Ideal ⟨2, ![a, 40]⟩ .f32) (p : Fin a) (c : Fin 40) :
    blockLogSumExp h sc bc d (ix2 p c) = Ideal.log (∑ j : Fin 40, Ideal.exp (d (ix2 p j))) :=
  (broadcastTo_a1_ab_apply _ bc p c).trans
    (congrArg Ideal.log ((shapeCast_a_a1_apply _ sc p 0).trans (multiReduction_add_row (exp d) h _ _ p)))

/-- The block's log-softmax, row by row: the shifted block minus the logarithm of the shifted rows' sums of exponentials. -/
def blockLogSoftmax : FVec Ideal ⟨2, ![a, 40]⟩ .f32 :=
  subf (blockShifted v h sc bc) (blockLogSumExp h sc bc (blockShifted v h sc bc))

theorem blockLogSoftmax_apply (p : Fin a) (q : Fin 40) :
    blockLogSoftmax v h sc bc (ix2 p q) = logSoftmaxAt (fun j => v (ix2 p j)) q :=
  congrArg₂ (fun x y : EReal => x - y) (blockShifted_apply v h sc bc p q)
    ((blockLogSumExp_apply h sc bc _ p q).trans
      (congrArg Ideal.log (Fintype.sum_congr _ _ fun j => congrArg Ideal.exp (blockShifted_apply v h sc bc p j))))

end Block

/-- The block of logits the kernel forms: the bias row added to every row of the block. -/
theorem kernelLogits_apply (x0 : Vec Ideal Cert.KernelIdeal.S2000x40 .f32) (x1 : Vec Ideal Cert.KernelIdeal.S40 .f32)
    (p : Fin 2000) (j : Fin 40) :
    (addf (shapeCast Cert.KernelIdeal.S2000x40 x0 Cert.KernelIdeal.Gen.shapeCasts_S2000x40_S2000x40)
      (broadcastTo Cert.KernelIdeal.S2000x40 (shapeCast Cert.KernelIdeal.S1x40 x1 Cert.KernelIdeal.Gen.shapeCasts_S40_S1x40)
        Cert.KernelIdeal.Gen.broadcasts_S1x40_S2000x40) : FVec Ideal Cert.KernelIdeal.S2000x40 .f32) (ix2 p j)
      = x0 (ix2 p j) + x1 (ix1 j) :=
  congrArg₂ (fun x y : EReal => x + y) (congrFun (shapeCast_self x0 _) (ix2 p j))
    ((broadcastTo_1b_ab_apply _ _ p j).trans (shapeCast_a_1a_apply x1 _ 0 j))

/-- THE VALUE THE KERNEL STORES AT `(p, q)`: the log-softmax, at `q`, of row `p` of the block plus the bias row. -/
theorem kernel_at (x0 : Vec Ideal Cert.KernelIdeal.S2000x40 .f32) (x1 : Vec Ideal Cert.KernelIdeal.S40 .f32)
    (p : Fin 2000) (q : Fin 40) :
    Cert.KernelIdeal.Gen.k2_pay1 (F := Ideal) x0 x1 (ix2 p q)
      = logSoftmaxAt (fun j => x0 (ix2 p j) + x1 (ix1 j)) q :=
  (blockLogSoftmax_apply
      (addf (shapeCast Cert.KernelIdeal.S2000x40 x0 Cert.KernelIdeal.Gen.shapeCasts_S2000x40_S2000x40)
        (broadcastTo Cert.KernelIdeal.S2000x40 (shapeCast Cert.KernelIdeal.S1x40 x1 Cert.KernelIdeal.Gen.shapeCasts_S40_S1x40)
          Cert.KernelIdeal.Gen.broadcasts_S1x40_S2000x40))
      Cert.KernelIdeal.Gen.reduces_S2000x40_S2000 Cert.KernelIdeal.Gen.shapeCasts_S2000_S2000x1
      Cert.KernelIdeal.Gen.broadcasts_S2000x1_S2000x40 p q).trans
    (congrArg (fun z => logSoftmaxAt z q) (funext fun j => kernelLogits_apply x0 x1 p j))

end Cert.Gcn.Row

namespace Cert.Gcn.Row

/-! ## The host's log-softmax of the rows of the whole array -/

section Host
open Cert.ReferenceIdeal
variable [Cert.ReferenceIdeal.Facts₀]

/-- The host's exponential at an index is the exponential of the entry. -/
theorem hostExp_apply {s : Shape} (v : FVec Ideal s .f32) (i : s.Idx) : Host.exp v i = Ideal.exp (v i) := rfl
/-- The host's logarithm at an index is the logarithm of the entry. -/
theorem hostLog_apply {s : Shape} (v : FVec Ideal s .f32) (i : s.Idx) : Host.log v i = Ideal.log (v i) := rfl

/-- The logits at `(r, j)`: the bias row added to every row. -/
theorem logits_apply (a : Cert.Gcn.RVec (F := Ideal) S100000x40) (b : Cert.Gcn.RVec (F := Ideal) S40)
    (r : Fin 100000) (j : Fin 40) : Cert.Gcn.logits a b (ix2 r j) = a (ix2 r j) + b (ix1 j) :=
  congrArg (fun y : EReal => a (ix2 r j) + y)
    ((broadcastInDim_1b_ab_apply _ _ r j).trans (broadcastInDim_b_1b_apply b _ 0 j))

/-- The host's row maximum (one more `max` with `-∞`, which changes nothing) is the row's maximum. -/
theorem hostRowMax_apply (z : Cert.Gcn.RVec (F := Ideal) S100000x40) (r : Fin 100000) :
    Cert.Gcn.rowMax z (ix1 r) = rowMax fun j => z (ix2 r j) := by
  unfold Cert.Gcn.rowMax
  rw [maximumf_apply, hostReduce_maximumf_row]
  refine (congrArg (fun x : EReal => max x _) ?_).trans (max_eq_right bot_le)
  exact (broadcastInDim_apply _ _ _ (ix1 r) ix0 (fun a => a.elim0)).trans ofBits_negInf_f32

/-- A per-row number spread over the row reads, anywhere in row `r`, that row's number. -/
theorem spread_apply (v : Cert.Gcn.RVec (F := Ideal) S100000) (r : Fin 100000) (c : Fin 40) :
    Cert.Gcn.spread v (ix2 r c) = v (ix1 r) :=
  (broadcastInDim_a1_ab_apply _ _ r c).trans (broadcastInDim_a_a1_apply v _ r 0)

/-- The row shifted by its maximum, at `(r, c)`. -/
theorem shifted_apply (z : Cert.Gcn.RVec (F := Ideal) S100000x40) (r : Fin 100000) (c : Fin 40) :
    Cert.Gcn.shifted z (ix2 r c) = z (ix2 r c) - rowMax fun j => z (ix2 r j) := by
  unfold Cert.Gcn.shifted
  rw [subf_apply, spread_apply, hostRowMax_apply]

/-- The host's log-softmax at `(r, q)` is the closed expression of row `r` (its sum starts from `0`). -/
theorem logsoftmax_apply (z : Cert.Gcn.RVec (F := Ideal) S100000x40) (r : Fin 100000) (q : Fin 40) :
    Cert.Gcn.logsoftmax z (ix2 r q) = logSoftmaxAt (fun j => z (ix2 r j)) q := by
  unfold Cert.Gcn.logsoftmax logSoftmaxAt
  rw [subf_apply, shifted_apply, broadcastInDim_a1_ab_apply, hostLog_apply, broadcastInDim_a_a1_apply, hostReduceAdd_row]
  simp only [hostExp_apply, shifted_apply]

/-- THE HOST'S LOG-SOFTMAX OF THE LOGITS AT `(r, q)`: the log-softmax, at `q`, of row `r` of the array plus the bias row. -/
theorem host_at (a : Cert.Gcn.RVec (F := Ideal) S100000x40) (b : Cert.Gcn.RVec (F := Ideal) S40)
    (r : Fin 100000) (q : Fin 40) :
    Cert.Gcn.logsoftmax (Cert.Gcn.logits a b) (ix2 r q) = logSoftmaxAt (fun j => a (ix2 r j) + b (ix1 j)) q :=
  (logsoftmax_apply (Cert.Gcn.logits a b) r q).trans
    (congrArg (fun z => logSoftmaxAt z q) (funext fun j => logits_apply a b r j))

end Host

end Cert.Gcn.Row

end
-- ==== Proof.LogSoftmax.lean ====
/-
  The log-softmax, block by block. Region 2 walks the 100000 rows of the aggregated scores `a` in 50 blocks of 2000 rows;
  at block `t` it adds the bias `b₂` to rows 2000·t … 2000·t + 1999 and replaces every row `z` by
  `(z - max z) - log ∑ exp (z - max z)`. A row's result depends on that row alone, so entry (r, q) of the result is the
  log-softmax of row r of `a + b₂` at q — the same as when all rows are done at once — and the 50 blocks tile all rows.
-/
import proofs.«174723_j44495861186966_1_alg».proof.Proof.Gen.KernelIdeal.Frame
import proofs.«174723_j44495861186966_1_alg».proof.Proof.Gen.ReferenceIdeal
import proofs.«174723_j44495861186966_1_alg».proof.Proof.Layers
import proofs.«174723_j44495861186966_1_alg».proof.Proof.SoftmaxRow
import Idealize.ShloMosaic.Lib.ValueIdx
import Idealize.ShloMosaic.Lib.Pipeline.Value

set_option maxRecDepth 16384

noncomputable section

namespace Cert.KernelIdeal.LogSoftmax

open Cert.KernelIdeal Cert.KernelIdeal.Gen
open Idealize.ShloMosaic Idealize.ShloMosaic.TcCoe Idealize.SL.Sem Idealize.ShloMosaic.ValueIdx
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a <;> rfl

/-- Where each window's block sits at grid point `t`: the row blocks of `a` and of the result are block `t`, the bias is
    always its one block. -/
theorem index_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Row `p` of a block that holds rows of `A` starting at row `r`'s place, against the same bias: the block's entry is
    the whole array's entry. -/
theorem point_eq (x0 : Vec Ideal S2000x40 .f32) (x1 : Vec Ideal S40 .f32)
    (A : Cert.Gcn.RVec (F := Ideal) Cert.ReferenceIdeal.S100000x40) (B : Cert.Gcn.RVec (F := Ideal) Cert.ReferenceIdeal.S40)
    (p : Fin 2000) (q : Fin 40) (r : Fin 100000)
    (h0 : ∀ j : Fin 40, x0 (ix2 p j) = A (ix2 r j)) (h1 : ∀ j : Fin 40, x1 (ix1 j) = B (ix1 j)) :
    k2_pay1 (F := Ideal) x0 x1 (ix2 p q) = Cert.Gcn.logsoftmax (F := Ideal) (Cert.Gcn.logits (F := Ideal) A B) (ix2 r q) := by
  rw [Cert.Gcn.Row.kernel_at, Cert.Gcn.Row.host_at]
  exact congrArg (fun z => Cert.Gcn.Row.logSoftmaxAt z q) (funext fun j => by rw [h0 j, h1 j])

variable (V : (c : Dev nD) → (b : Ref sig .tc) → Buf (Elt Ideal) ((c : Thread nD τ).loc b))

/-- What point `t` writes back is block `t` of the log-softmax of the whole arrays the region finds. -/
theorem flushed_eq (c : Dev nD) (t : Fin cfg2.N) :
    (dat2 V c).flushed 2 t = ((cfg2.win 2).blk t).view.read (Elt Ideal)
      (Cert.Gcn.logsoftmax (F := Ideal) (Cert.Gcn.logits (F := Ideal) (V c main_v72) (V c main_arg5))) := by
  show (cfg2.win 2).cut (grid2.coords t) ((dat2 V c).after 2 t) = _
  rw [after2_2]
  unfold out2_2
  rw [View.canon_unit_zero origin2]
  simp only [View.ld_unit_zero (S := S2000x40) origin2, View.ld_unit_zero (S := S40) origin1]
  obtain ⟨e0, e1, e2, e3, e4⟩ := index_facts t
  funext j
  obtain ⟨p, q, rfl⟩ : ∃ (p : Fin 2000) (q : Fin 40), j = ix2 p q := ⟨j 0, j 1, eq_ix2 j⟩
  have hN : grid2.N = 50 := N_2
  have ht : t.val < 50 := hN ▸ t.isLt
  have hr : t.val * 2000 + p.val < 100000 := by have := p.isLt; omega
  have hemb : ((cfg2.win 2).blk t).view.emb (ix2 p q) = ix2 (⟨t.val * 2000 + p.val, hr⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 40 + 1 * q.val = q.val; omega
  show k2_pay1 (iblk2 V c 0 t) (iblk2 V c 1 t) (ix2 p q)
    = Cert.Gcn.logsoftmax (F := Ideal) (Cert.Gcn.logits (F := Ideal) (V c main_v72) (V c main_arg5)) (((cfg2.win 2).blk t).view.emb (ix2 p q))
  rw [hemb]
  refine point_eq _ _ _ _ p q ⟨_, hr⟩ (fun k => ?_) (fun k => ?_)
  · show V c main_v72 (((cfg2.win 0).blk t).view.emb (ix2 p k)) = V c main_v72 (ix2 (⟨t.val * 2000 + p.val, hr⟩ : Fin 100000) k)
    refine congrArg (V c main_v72) (funext fun a => Fin.ext ?_)
    match a with
    | ⟨0, _⟩ => show win2_0.index t (0 : Fin 2) * 2000 + 1 * p.val = t.val * 2000 + p.val; omega
    | ⟨1, _⟩ => show win2_0.index t (1 : Fin 2) * 40 + 1 * k.val = k.val; omega
  · show V c main_arg5 (((cfg2.win 1).blk t).view.emb (ix1 k)) = V c main_arg5 (ix1 k)
    refine congrArg (V c main_arg5) (funext fun a => Fin.ext ?_)
    match a with
    | ⟨0, _⟩ => show win2_1.index t (0 : Fin 1) * 40 + 1 * k.val = k.val; omega

/-- An index of the result array lies in point `t`'s block iff each coordinate lies in the block's range. -/
theorem mem_blk (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v73).slice (win2_2.rect t)).set ↔ _
  rw [View.set_slice_whole, Rect.mem_set_unit]
  exact Iff.rfl

/-- Every row lies in some point's block: row `r` in block `r / 2000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 50 := N_2
  have hlt : (i 0).val / 2000 < grid2.N := by rw [hN]; omega
  obtain ⟨e0, e1, e2, e3, e4⟩ := index_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win2_2.index ⟨(i 0).val / 2000, hlt⟩ (1 : Fin 2) * 40 ≤ (i 1).val ∧ (i 1).val < win2_2.index ⟨(i 0).val / 2000, hlt⟩ (1 : Fin 2) * 40 + 40
    rw [e4]; omega

/-- The result array after region 2: the row-wise log-softmax of `a + b₂` over the whole arrays the region finds. -/
theorem final (c : Dev nD) :
    (dat2 V c).arrAt 2 cfg2.N = Cert.Gcn.logsoftmax (F := Ideal) (Cert.Gcn.logits (F := Ideal) (V c main_v72) (V c main_arg5)) :=
  (dat2 V c).arrAt_eq_of_cover 2 _ (fun t _ => flushed_eq V c t) cover

end Cert.KernelIdeal.LogSoftmax

end
-- ==== Proof.Result.lean ====
/-
  The idealized kernel's result array at the return: region 2 leaves in it the row-wise log-softmax of the second
  aggregation plus the bias, and the second aggregation, followed back through the boundaries, is built from the launch
  contents of the six arguments — so the array holds the network's value `Gcn.out` of them.
-/
import proofs.«174723_j44495861186966_1_alg».proof.Proof.Chain
import proofs.«174723_j44495861186966_1_alg».proof.Proof.LogSoftmax

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- At the return the result's buffer holds the network's value of the launch contents of the arguments. -/
theorem W7_out : W7 m ρ c (Proc.devRef .tc main_v73)
    = Cert.Gcn.out (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) :=
  (W7_arr m ρ c 2).trans ((Cert.KernelIdeal.LogSoftmax.final (V6 m ρ) c).trans
    (by rw [show V6 m ρ c main_v72 = _ from W6_agg m ρ c, show V6 m ρ c main_arg5 = _ from W6_arg5 m ρ c]; rfl))

end Cert.KernelIdeal.Chain

end
-- ==== Proof.lean ====
/-
  A two-layer graph convolution with a log-softmax head,
      out = logsoftmax (Â · relu (Â · (x · W₁) + b₁) · W₂ + b₂),   Â the degree-normalised adjacency with self loops,
  computed two ways. The reference does every step on whole arrays. The kernel does the gathers and scatter-adds of Â on
  whole arrays too, with the same operations, but evaluates the three dense pieces — x · W₁, relu (· + b₁) · W₂ and the
  row-wise log-softmax of · + b₂ — in three pipelined regions, 2000 rows at a time, casting the matrix factors to a
  narrower float format on the way. On the extended reals a change of format is the identity, a product accumulated into
  zero is the plain sum over the inner index, and each row of each dense piece depends only on the same row of its input,
  so each region's result array is the whole-array operation of its inputs (Dense1, Dense2, LogSoftmax: a block's entry
  is the whole array's entry, and the 50 blocks tile the 100000 rows). Following the result buffer back through the
  program's boundaries (Chain, Result) then composes the same function of the six arguments, `Gcn.out` (Layers), that the
  reference's straight line of operations composes (RefRun). No property of the inputs is used: the two sides are the
  same expression, grouped differently.
-/
import proofs.«174723_j44495861186966_1_alg».proof.Defs
import proofs.«174723_j44495861186966_1_alg».proof.Proof.Gen.Kernel
import proofs.«174723_j44495861186966_1_alg».proof.Proof.Gen.Kernel.Skeleton
import proofs.«174723_j44495861186966_1_alg».proof.Proof.Gen.Kernel.Launch
import proofs.«174723_j44495861186966_1_alg».proof.Proof.Gen.Kernel.Points
import proofs.«174723_j44495861186966_1_alg».proof.Proof.Gen.Kernel.Frame
import proofs.«174723_j44495861186966_1_alg».proof.Proof.Gen.KernelIdeal
import proofs.«174723_j44495861186966_1_alg».proof.Proof.Gen.KernelIdeal.Skeleton
import proofs.«174723_j44495861186966_1_alg».proof.Proof.Gen.KernelIdeal.Launch
import proofs.«174723_j44495861186966_1_alg».proof.Proof.Gen.KernelIdeal.Points
import proofs.«174723_j44495861186966_1_alg».proof.Proof.Gen.KernelIdeal.Frame
import proofs.«174723_j44495861186966_1_alg».proof.Proof.Gen.ReferenceIdeal
import proofs.«174723_j44495861186966_1_alg».proof.Proof.Gen.Pre_finite_inputs
import proofs.«174723_j44495861186966_1_alg».proof.Proof.RunValue
import proofs.«174723_j44495861186966_1_alg».proof.Proof.RefRun
import proofs.«174723_j44495861186966_1_alg».proof.Proof.Result
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation: there is nothing to preserve. -/
theorem preserves : Cert.preserves_Kernel_KernelIdeal := trivial

/-- From memories that agree on the arguments both programs end with the result array at the network's value of those
    arguments: the kernel by reading its result buffer back through the program, the reference operation by operation. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Chain.W7_out m ρ c), (h c).2⟩)
    (Cert.KernelIdeal.RunValue.run_result (F := Ideal) m ρ), ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
